-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x1x1048576x2 : Shape := ⟨4, ![5, 1, 1048576, 2]⟩
abbrev S1x1048576x14 : Shape := ⟨3, ![1, 1048576, 14]⟩
abbrev S5x8x2 : Shape := ⟨3, ![5, 8, 2]⟩
abbrev S5x8 : Shape := ⟨2, ![5, 8]⟩
abbrev S24x24 : Shape := ⟨2, ![24, 24]⟩
abbrev S24 : Shape := ⟨1, ![24]⟩
abbrev S5x24 : Shape := ⟨2, ![5, 24]⟩
abbrev S5 : Shape := ⟨1, ![5]⟩
abbrev S_ : Shape := ⟨0, ![]⟩

class Facts : Prop where
  bcast_S_S5x1x1048576x2 : S_.BroadcastsInDim S5x1x1048576x2 (![] : Fin 0 → Fin S5x1x1048576x2.rank)
  reducesTo_S5x1x1048576x2_S_d0_1_2_3 : S5x1x1048576x2.ReducesTo [0, 1, 2, 3] S_
  h_S_ : 0 < S_.numel
  bcast_S_S1x1048576x14 : S_.BroadcastsInDim S1x1048576x14 (![] : Fin 0 → Fin S1x1048576x14.rank)
  reducesTo_S1x1048576x14_S_d0_1_2 : S1x1048576x14.ReducesTo [0, 1, 2] S_
  bcast_S_S5x8x2 : S_.BroadcastsInDim S5x8x2 (![] : Fin 0 → Fin S5x8x2.rank)
  reducesTo_S5x8x2_S_d0_1_2 : S5x8x2.ReducesTo [0, 1, 2] S_
  bcast_S_S5x8 : S_.BroadcastsInDim S5x8 (![] : Fin 0 → Fin S5x8.rank)
  reducesTo_S5x8_S_d0_1 : S5x8.ReducesTo [0, 1] S_
  bcast_S_S24x24 : S_.BroadcastsInDim S24x24 (![] : Fin 0 → Fin S24x24.rank)
  reducesTo_S24x24_S_d0_1 : S24x24.ReducesTo [0, 1] S_
  bcast_S_S24 : S_.BroadcastsInDim S24 (![] : Fin 0 → Fin S24.rank)
  reducesTo_S24_S_d0 : S24.ReducesTo [0] S_
  bcast_S_S5x24 : S_.BroadcastsInDim S5x24 (![] : Fin 0 → Fin S5x24.rank)
  reducesTo_S5x24_S_d0_1 : S5x24.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S24 .f32) (main_arg8 : FVec F S5x24 .f32) (main_arg9 : FVec F S5 .f32) (main_v33 : IVec S_ 1) : IVec S_ 1 :=
  let main_v34 : FVec F S24 .f32 := Host.absf main_arg7
  let main_cst_12 : FVec F S_ .f32 := constant S_ .f32 0x7F800000#32
  let main_v35 : FVec F S24 .f32 := broadcastInDim S24 ![] bcast_S_S24 main_cst_12
  let main_v36 : IVec S24 1 := cmpf .olt main_v34 main_v35
  let main_c_13 : IVec S_ 1 := constantI S_ 1 1#1
  let main_v37 : IVec S_ 1 := (fun x v => Host.reduce IntOp.andi x v reducesTo_S24_S_d0 h_S_) main_v36 main_c_13
  let main_v38 : IVec S_ 1 := andi main_v33 main_v37
  let main_v39 : FVec F S5x24 .f32 := Host.absf main_arg8
  let main_cst_14 : FVec F S_ .f32 := constant S_ .f32 0x7F800000#32
  let main_v40 : FVec F S5x24 .f32 := broadcastInDim S5x24 ![] bcast_S_S5x24 main_cst_14
  let main_v41 : IVec S5x24 1 := cmpf .olt main_v39 main_v40
  let main_c_15 : IVec S_ 1 := constantI S_ 1 1#1
  let main_v42 : IVec S_ 1 := (fun x v => Host.reduce IntOp.andi x v reducesTo_S5x24_S_d0_1 h_S_) main_v41 main_c_15
  let main_v43 : IVec S_ 1 := andi main_v38 main_v42
  let main_v44 : FVec F S5 .f32 := Host.absf main_arg9
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg4 : FVec F S5x8 .f32) (main_arg5 : FVec F S5x8 .f32) (main_arg6 : FVec F S24x24 .f32) (main_arg7 : FVec F S24 .f32) (main_arg8 : FVec F S5x24 .f32) (main_arg9 : FVec F S5 .f32) (main_v13 : IVec S_ 1) (main_v16 : IVec S5x8x2 1) : IVec S_ 1 :=
  let main_c_5 : IVec S_ 1 := constantI S_ 1 1#1
  let main_v17 : IVec S_ 1 := (fun x v => Host.reduce IntOp.andi x v reducesTo_S5x8x2_S_d0_1_2 h_S_) main_v16 main_c_5
  let main_v18 : IVec S_ 1 := andi main_v13 main_v17
  let main_v19 : FVec F S5x8 .f32 := Host.absf main_arg4
  let main_cst_6 : FVec F S_ .f32 := constant S_ .f32 0x7F800000#32
  let main_v20 : FVec F S5x8 .f32 := broadcastInDim S5x8 ![] bcast_S_S5x8 main_cst_6
  let main_v21 : IVec S5x8 1 := cmpf .olt main_v19 main_v20
  let main_c_7 : IVec S_ 1 := constantI S_ 1 1#1
  let main_v22 : IVec S_ 1 := (fun x v => Host.reduce IntOp.andi x v reducesTo_S5x8_S_d0_1 h_S_) main_v21 main_c_7
  let main_v23 : IVec S_ 1 := andi main_v18 main_v22
  let main_v24 : FVec F S5x8 .f32 := Host.absf main_arg5
  let main_cst_8 : FVec F S_ .f32 := constant S_ .f32 0x7F800000#32
  let main_v25 : FVec F S5x8 .f32 := broadcastInDim S5x8 ![] bcast_S_S5x8 main_cst_8
  let main_v26 : IVec S5x8 1 := cmpf .olt main_v24 main_v25
  let main_c_9 : IVec S_ 1 := constantI S_ 1 1#1
  let main_v27 : IVec S_ 1 := (fun x v => Host.reduce IntOp.andi x v reducesTo_S5x8_S_d0_1 h_S_) main_v26 main_c_9
  let main_v28 : IVec S_ 1 := andi main_v23 main_v27
  let main_v29 : FVec F S24x24 .f32 := Host.absf main_arg6
  let main_cst_10 : FVec F S_ .f32 := constant S_ .f32 0x7F800000#32
  let main_v30 : FVec F S24x24 .f32 := broadcastInDim S24x24 ![] bcast_S_S24x24 main_cst_10
  let main_v31 : IVec S24x24 1 := cmpf .olt main_v29 main_v30
  let main_c_11 : IVec S_ 1 := constantI S_ 1 1#1
  let main_v32 : IVec S_ 1 := (fun x v => Host.reduce IntOp.andi x v reducesTo_S24x24_S_d0_1 h_S_) main_v31 main_c_11
  let main_v33 : IVec S_ 1 := andi main_v28 main_v32
  fn_part2 (F := F) main_arg7 main_arg8 main_arg9 main_v33

def fn {F : FTy → Type} [FloatOps F] (main_arg0 : FVec F S5x1x1048576x2 .f32) (main_arg1 : FVec F S1x1048576x14 .f32) (main_arg2 : FVec F S5x8x2 .f32) (main_arg3 : FVec F S5x8x2 .f32) (main_arg4 : FVec F S5x8 .f32) (main_arg5 : FVec F S5x8 .f32) (main_arg6 : FVec F S24x24 .f32) (main_arg7 : FVec F S24 .f32) (main_arg8 : FVec F S5x24 .f32) (main_arg9 : FVec F S5 .f32) : IVec S_ 1 :=
  let main_v0 : FVec F S5x1x1048576x2 .f32 := Host.absf main_arg0
  let main_cst : FVec F S_ .f32 := constant S_ .f32 0x7F800000#32
  let main_v1 : FVec F S5x1x1048576x2 .f32 := broadcastInDim S5x1x1048576x2 ![] bcast_S_S5x1x1048576x2 main_cst
  let main_v2 : IVec S5x1x1048576x2 1 := cmpf .olt main_v0 main_v1
  let main_c : IVec S_ 1 := constantI S_ 1 1#1
  let main_v3 : IVec S_ 1 := (fun x v => Host.reduce IntOp.andi x v reducesTo_S5x1x1048576x2_S_d0_1_2_3 h_S_) main_v2 main_c
  let main_v4 : FVec F S1x1048576x14 .f32 := Host.absf main_arg1
  let main_cst_0 : FVec F S_ .f32 := constant S_ .f32 0x7F800000#32
  let main_v5 : FVec F S1x1048576x14 .f32 := broadcastInDim S1x1048576x14 ![] bcast_S_S1x1048576x14 main_cst_0
  let main_v6 : IVec S1x1048576x14 1 := cmpf .olt main_v4 main_v5
  let main_c_1 : IVec S_ 1 := constantI S_ 1 1#1
  let main_v7 : IVec S_ 1 := (fun x v => Host.reduce IntOp.andi x v reducesTo_S1x1048576x14_S_d0_1_2 h_S_) main_v6 main_c_1
  let main_v8 : IVec S_ 1 := andi main_v3 main_v7
  let main_v9 : FVec F S5x8x2 .f32 := Host.absf main_arg2
  let main_cst_2 : FVec F S_ .f32 := constant S_ .f32 0x7F800000#32
  let main_v10 : FVec F S5x8x2 .f32 := broadcastInDim S5x8x2 ![] bcast_S_S5x8x2 main_cst_2
  let main_v11 : IVec S5x8x2 1 := cmpf .olt main_v9 main_v10
  let main_c_3 : IVec S_ 1 := constantI S_ 1 1#1
  let main_v12 : IVec S_ 1 := (fun x v => Host.reduce IntOp.andi x v reducesTo_S5x8x2_S_d0_1_2 h_S_) main_v11 main_c_3
  let main_v13 : IVec S_ 1 := andi main_v8 main_v12
  let main_v14 : FVec F S5x8x2 .f32 := Host.absf main_arg3
  let main_cst_4 : FVec F S_ .f32 := constant S_ .f32 0x7F800000#32
  let main_v15 : FVec F S5x8x2 .f32 := broadcastInDim S5x8x2 ![] bcast_S_S5x8x2 main_cst_4
  let main_v16 : IVec S5x8x2 1 := cmpf .olt main_v14 main_v15
  fn_part1 (F := F) main_arg4 main_arg5 main_arg6 main_arg7 main_arg8 main_arg9 main_v13 main_v16
-- ==== Kernel.lean ====
abbrev S5x1x1048576x2 : Shape := ⟨4, ![5, 1, 1048576, 2]⟩
abbrev S1x1048576x14 : Shape := ⟨3, ![1, 1048576, 14]⟩
abbrev S5x8x2 : Shape := ⟨3, ![5, 8, 2]⟩
abbrev S5x8 : Shape := ⟨2, ![5, 8]⟩
abbrev S24x24 : Shape := ⟨2, ![24, 24]⟩
abbrev S24 : Shape := ⟨1, ![24]⟩
abbrev S5x24 : Shape := ⟨2, ![5, 24]⟩
abbrev S5 : Shape := ⟨1, ![5]⟩
abbrev S5x1x8 : Shape := ⟨3, ![5, 1, 8]⟩
abbrev S5x2x8 : Shape := ⟨3, ![5, 2, 8]⟩
abbrev S24x5 : Shape := ⟨2, ![24, 5]⟩
abbrev S1x24 : Shape := ⟨2, ![1, 24]⟩
abbrev S1x5 : Shape := ⟨2, ![1, 5]⟩
abbrev S1048576x5 : Shape := ⟨2, ![1048576, 5]⟩
abbrev S5x1x2048x2 : Shape := ⟨4, ![5, 1, 2048, 2]⟩
abbrev S1x2048x14 : Shape := ⟨3, ![1, 2048, 14]⟩
abbrev S2048x5 : Shape := ⟨2, ![2048, 5]⟩
abbrev S5x2048x2 : Shape := ⟨3, ![5, 2048, 2]⟩
abbrev S2048x14 : Shape := ⟨2, ![2048, 14]⟩
abbrev S1x2048x2 : Shape := ⟨3, ![1, 2048, 2]⟩
abbrev S2048x2 : Shape := ⟨2, ![2048, 2]⟩
abbrev S2048x1 : Shape := ⟨2, ![2048, 1]⟩
abbrev S1x2x8 : Shape := ⟨3, ![1, 2, 8]⟩
abbrev S2x8 : Shape := ⟨2, ![2, 8]⟩
abbrev S1x1x8 : Shape := ⟨3, ![1, 1, 8]⟩
abbrev S1x8 : Shape := ⟨2, ![1, 8]⟩
abbrev S2048x8 : Shape := ⟨2, ![2048, 8]⟩
abbrev S2048x10 : Shape := ⟨2, ![2048, 10]⟩
abbrev S2048x24 : Shape := ⟨2, ![2048, 24]⟩

abbrev nBuf : Space → Nat
  | .hbm => 18
  | .vmem => 12
  | .smem => 0
  | _ => 0

abbrev bufTy : (tb : Table) → Fin (tcTables nBuf tb) → BufTy
  | .hbm, ⟨0, _⟩ => ⟨S5x1x1048576x2, .f32⟩
  | .hbm, ⟨1, _⟩ => ⟨S1x1048576x14, .f32⟩
  | .hbm, ⟨2, _⟩ => ⟨S5x8x2, .f32⟩
  | .hbm, ⟨3, _⟩ => ⟨S5x8x2, .f32⟩
  | .hbm, ⟨4, _⟩ => ⟨S5x8, .f32⟩
  | .hbm, ⟨5, _⟩ => ⟨S5x8, .f32⟩
  | .hbm, ⟨6, _⟩ => ⟨S24x24, .f32⟩
  | .hbm, ⟨7, _⟩ => ⟨S24, .f32⟩
  | .hbm, ⟨8, _⟩ => ⟨S5x24, .f32⟩
  | .hbm, ⟨9, _⟩ => ⟨S5, .f32⟩
  | .hbm, ⟨10, _⟩ => ⟨S5x8, .f32⟩
  | .hbm, ⟨11, _⟩ => ⟨S5x1x8, .f32⟩
  | .hbm, ⟨12, _⟩ => ⟨S5x2x8, .f32⟩
  | .hbm, ⟨13, _⟩ => ⟨S24x24, .f32⟩
  | .hbm, ⟨14, _⟩ => ⟨S24x5, .f32⟩
  | .hbm, ⟨15, _⟩ => ⟨S1x24, .f32⟩
  | .hbm, ⟨16, _⟩ => ⟨S1x5, .f32⟩
  | .hbm, ⟨17, _⟩ => ⟨S1048576x5, .f32⟩
  | .local _ .vmem, ⟨0, _⟩ => ⟨S5x1x2048x2, .f32⟩
  | .local _ .vmem, ⟨1, _⟩ => ⟨S5x1x2048x2, .f32⟩
  | .local _ .vmem, ⟨2, _⟩ => ⟨S1x2048x14, .f32⟩
  | .local _ .vmem, ⟨3, _⟩ => ⟨S1x2048x14, .f32⟩
  | .local _ .vmem, ⟨4, _⟩ => ⟨S5x2x8, .f32⟩
  | .local _ .vmem, ⟨5, _⟩ => ⟨S5x1x8, .f32⟩
  | .local _ .vmem, ⟨6, _⟩ => ⟨S24x24, .f32⟩
  | .local _ .vmem, ⟨7, _⟩ => ⟨S1x24, .f32⟩
  | .local _ .vmem, ⟨8, _⟩ => ⟨S24x5, .f32⟩
  | .local _ .vmem, ⟨9, _⟩ => ⟨S1x5, .f32⟩
  | .local _ .vmem, ⟨10, _⟩ => ⟨S2048x5, .f32⟩
  | .local _ .vmem, ⟨11, _⟩ => ⟨S2048x5, .f32⟩
  | _, _ => ⟨S5x1x1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S5x8_S5x1x8 : S5x8.ShapeCasts S5x1x8
  transposes_S5x8x2_S5x2x8_0_2_1 : S5x8x2.Transposes [0, 2, 1] S5x2x8
  transposes_S24x24_S24x24_1_0 : S24x24.Transposes [1, 0] S24x24
  transposes_S5x24_S24x5_1_0 : S5x24.Transposes [1, 0] S24x5
  shapeCasts_S24_S1x24 : S24.ShapeCasts S1x24
  shapeCasts_S5_S1x5 : S5.ShapeCasts S1x5
  inb_S5x1x2048x2_S5x1x2048x2_0_0_0_0 : ∀ a, (![0, 0, 0, 0] : Fin 4 → Nat) a + S5x1x2048x2.size a ≤ S5x1x2048x2.size a
  h_S5x1x2048x2 : 0 < S5x1x2048x2.numel
  shapeCasts_S5x1x2048x2_S5x2048x2 : S5x1x2048x2.ShapeCasts S5x2048x2
  inb_S1x2048x14_S1x2048x14_0_0_0 : ∀ a, (![0, 0, 0] : Fin 3 → Nat) a + S1x2048x14.size a ≤ S1x2048x14.size a
  h_S1x2048x14 : 0 < S1x2048x14.numel
  shapeCasts_S1x2048x14_S2048x14 : S1x2048x14.ShapeCasts S2048x14
  slices_S5x2048x2_o0_0_0_S1x2048x2 : S5x2048x2.Slices ![0, 0, 0] S1x2048x2
  shapeCasts_S1x2048x2_S2048x2 : S1x2048x2.ShapeCasts S2048x2
  slices_S2048x2_o0_0_S2048x1 : S2048x2.Slices ![0, 0] S2048x1
  slices_S2048x2_o0_1_S2048x1 : S2048x2.Slices ![0, 1] S2048x1
  inb_S5x2x8_S1x2x8_0_0_0 : ∀ a, (![0, 0, 0] : Fin 3 → Nat) a + S1x2x8.size a ≤ S5x2x8.size a
  h_S1x2x8 : 0 < S1x2x8.numel
  shapeCasts_S1x2x8_S2x8 : S1x2x8.ShapeCasts S2x8
  inb_S5x1x8_S1x1x8_0_0_0 : ∀ a, (![0, 0, 0] : Fin 3 → Nat) a + S1x1x8.size a ≤ S5x1x8.size a
  h_S1x1x8 : 0 < S1x1x8.numel
  shapeCasts_S1x1x8_S1x8 : S1x1x8.ShapeCasts S1x8
  slices_S2x8_o0_0_S1x8 : S2x8.Slices ![0, 0] S1x8
  broadcasts_S2048x1_S2048x8 : S2048x1.Broadcasts S2048x8
  broadcasts_S1x8_S2048x8 : S1x8.Broadcasts S2048x8
  slices_S2x8_o1_0_S1x8 : S2x8.Slices ![1, 0] S1x8
  slices_S2048x8_o0_0_S2048x2 : S2048x8.Slices ![0, 0] S2048x2
  slices_S2048x8_o0_2_S2048x2 : S2048x8.Slices ![0, 2] S2048x2
  slices_S2048x8_o0_4_S2048x2 : S2048x8.Slices ![0, 4] S2048x2
  slices_S2048x8_o0_6_S2048x2 : S2048x8.Slices ![0, 6] S2048x2
  slices_S5x2048x2_o1_0_0_S1x2048x2 : S5x2048x2.Slices ![1, 0, 0] S1x2048x2
  inb_S5x2x8_S1x2x8_1_0_0 : ∀ a, (![1, 0, 0] : Fin 3 → Nat) a + S1x2x8.size a ≤ S5x2x8.size a
  inb_S5x1x8_S1x1x8_1_0_0 : ∀ a, (![1, 0, 0] : Fin 3 → Nat) a + S1x1x8.size a ≤ S5x1x8.size a
  slices_S5x2048x2_o2_0_0_S1x2048x2 : S5x2048x2.Slices ![2, 0, 0] S1x2048x2
  inb_S5x2x8_S1x2x8_2_0_0 : ∀ a, (![2, 0, 0] : Fin 3 → Nat) a + S1x2x8.size a ≤ S5x2x8.size a
  inb_S5x1x8_S1x1x8_2_0_0 : ∀ a, (![2, 0, 0] : Fin 3 → Nat) a + S1x1x8.size a ≤ S5x1x8.size a
  slices_S5x2048x2_o3_0_0_S1x2048x2 : S5x2048x2.Slices ![3, 0, 0] S1x2048x2
  inb_S5x2x8_S1x2x8_3_0_0 : ∀ a, (![3, 0, 0] : Fin 3 → Nat) a + S1x2x8.size a ≤ S5x2x8.size a
  inb_S5x1x8_S1x1x8_3_0_0 : ∀ a, (![3, 0, 0] : Fin 3 → Nat) a + S1x1x8.size a ≤ S5x1x8.size a
  slices_S5x2048x2_o4_0_0_S1x2048x2 : S5x2048x2.Slices ![4, 0, 0] S1x2048x2
  inb_S5x2x8_S1x2x8_4_0_0 : ∀ a, (![4, 0, 0] : Fin 3 → Nat) a + S1x2x8.size a ≤ S5x2x8.size a
  inb_S5x1x8_S1x1x8_4_0_0 : ∀ a, (![4, 0, 0] : Fin 3 → Nat) a + S1x1x8.size a ≤ S5x1x8.size a
  concatenates_S2048x2_S2048x2_S2048x2_S2048x2_S2048x2_S2048x10_d1 : Shape.Concatenates [S2048x2, S2048x2, S2048x2, S2048x2, S2048x2] S2048x10 1
  concatenates_S2048x10_S2048x14_S2048x24_d1 : Shape.Concatenates [S2048x10, S2048x14] S2048x24 1
  inb_S24x24_S24x24_0_0 : ∀ a, (![0, 0] : Fin 2 → Nat) a + S24x24.size a ≤ S24x24.size a
  h_S24x24 : 0 < S24x24.numel
  shapeCasts_S24x24_S24x24 : S24x24.ShapeCasts S24x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S2048x24 : S1x24.Broadcasts S2048x24
  inb_S24x5_S24x5_0_0 : ∀ a, (![0, 0] : Fin 2 → Nat) a + S24x5.size a ≤ S24x5.size a
  h_S24x5 : 0 < S24x5.numel
  shapeCasts_S24x5_S24x5 : S24x5.ShapeCasts S24x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  dot_S2048x24_S24x24_S2048x24_1_0_0_1_n_n_wf : DotDims.WF S2048x24 S24x24 S2048x24 [1] [0] [0] [1] [] []
  dot_S2048x24_S24x5_S2048x5_1_0_0_1_n_n_wf : DotDims.WF S2048x24 S24x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x1x2048x2.size a ≤ S5x1x1048576x2.size a
  hwx0_0 : ∀ i : grid0.Coords, EltTy.bits .f32 = 32 ∨ (Rect.block (s := S5x1x1048576x2) S5x1x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x14.size a ≤ S1x1048576x14.size a
  hwx0_1 : ∀ i : grid0.Coords, EltTy.bits .f32 = 32 ∨ (Rect.block (s := S1x1048576x14) S1x2048x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x2x8.size a ≤ S5x2x8.size a
  hwx0_2 : ∀ i : grid0.Coords, EltTy.bits .f32 = 32 ∨ (Rect.block (s := S5x2x8) S5x2x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x1x8.size a ≤ S5x1x8.size a
  hwx0_3 : ∀ i : grid0.Coords, EltTy.bits .f32 = 32 ∨ (Rect.block (s := S5x1x8) S5x1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x24.size a ≤ S24x24.size a
  hwx0_4 : ∀ i : grid0.Coords, EltTy.bits .f32 = 32 ∨ (Rect.block (s := S24x24) S24x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x24.size a ≤ S1x24.size a
  hwx0_5 : ∀ i : grid0.Coords, EltTy.bits .f32 = 32 ∨ (Rect.block (s := S1x24) S1x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x5.size a ≤ S24x5.size a
  hwx0_6 : ∀ i : grid0.Coords, EltTy.bits .f32 = 32 ∨ (Rect.block (s := S24x5) S24x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x5.size a ≤ S1x5.size a
  hwx0_7 : ∀ i : grid0.Coords, EltTy.bits .f32 = 32 ∨ (Rect.block (s := S1x5) S1x5.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x5.size a ≤ S1048576x5.size a
  hwx0_8 : ∀ i : grid0.Coords, EltTy.bits .f32 = 32 ∨ (Rect.block (s := S1048576x5) S2048x5.size (cc0_transform_8 i) (hinb0_8 i)).WholeWords (EltTy.packing .f32)

variable [Facts₀]

def dot_S2048x24_S24x24_S2048x24_1_0_0_1_n_n : DotDims S2048x24 S24x24 S2048x24 where
  lhsContracting := [1]
  rhsContracting := [0]
  lhsNonContracting := [0]
  rhsNonContracting := [1]
  lhsBatch := []
  rhsBatch := []
  wf := dot_S2048x24_S24x24_S2048x24_1_0_0_1_n_n_wf
def dot_S2048x24_S24x5_S2048x5_1_0_0_1_n_n : DotDims S2048x24 S24x5 S2048x5 where
  lhsContracting := [1]
  rhsContracting := [0]
  lhsNonContracting := [0]
  rhsNonContracting := [1]
  lhsBatch := []
  rhsBatch := []
  wf := dot_S2048x24_S24x5_S2048x5_1_0_0_1_n_n_wf

abbrev win0_0 : Pipeline.Window sig grid0 :=
  Pipeline.Window.ofSpec (Memref.whole main_arg0) S5x1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5x2x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5x1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S24x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S24x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x5.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S5x1x1048576x2 : Shape := ⟨4, ![5, 1, 1048576, 2]⟩
abbrev S1x1048576x14 : Shape := ⟨3, ![1, 1048576, 14]⟩
abbrev S5x8x2 : Shape := ⟨3, ![5, 8, 2]⟩
abbrev S5x8 : Shape := ⟨2, ![5, 8]⟩
abbrev S24x24 : Shape := ⟨2, ![24, 24]⟩
abbrev S24 : Shape := ⟨1, ![24]⟩
abbrev S5x24 : Shape := ⟨2, ![5, 24]⟩
abbrev S5 : Shape := ⟨1, ![5]⟩
abbrev S5x1048576x2 : Shape := ⟨3, ![5, 1048576, 2]⟩
abbrev S5x1048576x8 : Shape := ⟨3, ![5, 1048576, 8]⟩
abbrev S5x1x8 : Shape := ⟨3, ![5, 1, 8]⟩
abbrev S_ : Shape := ⟨0, ![]⟩
abbrev S1048576x5x2 : Shape := ⟨3, ![1048576, 5, 2]⟩
abbrev S1048576x10 : Shape := ⟨2, ![1048576, 10]⟩
abbrev S1048576x14 : Shape := ⟨2, ![1048576, 14]⟩
abbrev S1048576x24 : Shape := ⟨2, ![1048576, 24]⟩
abbrev S1x24 : Shape := ⟨2, ![1, 24]⟩
abbrev S24x5 : Shape := ⟨2, ![24, 5]⟩
abbrev S1048576x5 : Shape := ⟨2, ![1048576, 5]⟩
abbrev S1x5 : Shape := ⟨2, ![1, 5]⟩

abbrev nBuf : Space → Nat
  | .hbm => 65
  | .vmem => 0
  | .smem => 0
  | _ => 0

abbrev bufTy : (tb : Table) → Fin (tcTables nBuf tb) → BufTy
  | .hbm, ⟨0, _⟩ => ⟨S5x1x1048576x2, .f32⟩
  | .hbm, ⟨1, _⟩ => ⟨S1x1048576x14, .f32⟩
  | .hbm, ⟨2, _⟩ => ⟨S5x8x2, .f32⟩
  | .hbm, ⟨3, _⟩ => ⟨S5x8x2, .f32⟩
  | .hbm, ⟨4, _⟩ => ⟨S5x8, .f32⟩
  | .hbm, ⟨5, _⟩ => ⟨S5x8, .f32⟩
  | .hbm, ⟨6, _⟩ => ⟨S24x24, .f32⟩
  | .hbm, ⟨7, _⟩ => ⟨S24, .f32⟩
  | .hbm, ⟨8, _⟩ => ⟨S5x24, .f32⟩
  | .hbm, ⟨9, _⟩ => ⟨S5, .f32⟩
  | .hbm, ⟨10, _⟩ => ⟨S5x1048576x2, .f32⟩
  | .hbm, ⟨11, _⟩ => ⟨S5x1048576x8, .f32⟩
  | .hbm, ⟨12, _⟩ => ⟨S5x8, .f32⟩
  | .hbm, ⟨13, _⟩ => ⟨S5x1x8, .f32⟩
  | .hbm, ⟨14, _⟩ => ⟨S5x1048576x8, .f32⟩
  | .hbm, ⟨15, _⟩ => ⟨S5x1048576x8, .f32⟩
  | .hbm, ⟨16, _⟩ => ⟨S5x1048576x2, .f32⟩
  | .hbm, ⟨17, _⟩ => ⟨S5x1048576x2, .f32⟩
  | .hbm, ⟨18, _⟩ => ⟨S5x1048576x2, .f32⟩
  | .hbm, ⟨19, _⟩ => ⟨S5x1048576x2, .f32⟩
  | .hbm, ⟨20, _⟩ => ⟨S5x1048576x2, .f32⟩
  | .hbm, ⟨21, _⟩ => ⟨S5x1048576x2, .f32⟩
  | .hbm, ⟨22, _⟩ => ⟨S_, .f32⟩
  | .hbm, ⟨23, _⟩ => ⟨S5x1048576x2, .f32⟩
  | .hbm, ⟨24, _⟩ => ⟨S5x1048576x2, .f32⟩
  | .hbm, ⟨25, _⟩ => ⟨S_, .f32⟩
  | .hbm, ⟨26, _⟩ => ⟨S5x1048576x2, .f32⟩
  | .hbm, ⟨27, _⟩ => ⟨S5x1048576x2, .f32⟩
  | .hbm, ⟨28, _⟩ => ⟨S5x1048576x2, .f32⟩
  | .hbm, ⟨29, _⟩ => ⟨S5x1048576x2, .f32⟩
  | .hbm, ⟨30, _⟩ => ⟨S5x1048576x2, .f32⟩
  | .hbm, ⟨31, _⟩ => ⟨S5x1048576x2, .f32⟩
  | .hbm, ⟨32, _⟩ => ⟨S_, .f32⟩
  | .hbm, ⟨33, _⟩ => ⟨S5x1048576x2, .f32⟩
  | .hbm, ⟨34, _⟩ => ⟨S5x1048576x2, .f32⟩
  | .hbm, ⟨35, _⟩ => ⟨S_, .f32⟩
  | .hbm, ⟨36, _⟩ => ⟨S5x1048576x2, .f32⟩
  | .hbm, ⟨37, _⟩ => ⟨S5x1048576x2, .f32⟩
  | .hbm, ⟨38, _⟩ => ⟨S5x1048576x2, .f32⟩
  | .hbm, ⟨39, _⟩ => ⟨S5x1048576x2, .f32⟩
  | .hbm, ⟨40, _⟩ => ⟨S1048576x5x2, .f32⟩
  | .hbm, ⟨41, _⟩ => ⟨S1048576x10, .f32⟩
  | .hbm, ⟨42, _⟩ => ⟨S1048576x14, .f32⟩
  | .hbm, ⟨43, _⟩ => ⟨S1048576x24, .f32⟩
  | .hbm, ⟨44, _⟩ => ⟨S24x24, .f32⟩
  | .hbm, ⟨45, _⟩ => ⟨S1048576x24, .f32⟩
  | .hbm, ⟨46, _⟩ => ⟨S1x24, .f32⟩
  | .hbm, ⟨47, _⟩ => ⟨S1048576x24, .f32⟩
  | .hbm, ⟨48, _⟩ => ⟨S1048576x24, .f32⟩
  | .hbm, ⟨49, _⟩ => ⟨S_, .f32⟩
  | .hbm, ⟨50, _⟩ => ⟨S1048576x24, .f32⟩
  | .hbm, ⟨51, _⟩ => ⟨S1048576x24, .f32⟩
  | .hbm, ⟨52, _⟩ => ⟨S24x5, .f32⟩
  | .hbm, ⟨53, _⟩ => ⟨S1048576x5, .f32⟩
  | .hbm, ⟨54, _⟩ => ⟨S1x5, .f32⟩
  | .hbm, ⟨55, _⟩ => ⟨S1048576x5, .f32⟩
  | .hbm, ⟨56, _⟩ => ⟨S1048576x5, .f32⟩
  | .hbm, ⟨57, _⟩ => ⟨S1048576x5, .f32⟩
  | .hbm, ⟨58, _⟩ => ⟨S1048576x5, .f32⟩
  | .hbm, ⟨59, _⟩ => ⟨S_, .f32⟩
  | .hbm, ⟨60, _⟩ => ⟨S1048576x5, .f32⟩
  | .hbm, ⟨61, _⟩ => ⟨S1048576x5, .f32⟩
  | .hbm, ⟨62, _⟩ => ⟨S_, .f32⟩
  | .hbm, ⟨63, _⟩ => ⟨S1048576x5, .f32⟩
  | .hbm, ⟨64, _⟩ => ⟨S1048576x5, .f32⟩
  | _, _ => ⟨S5x1x1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  shapeCasts_S5x1x1048576x2_S5x1048576x2 : S5x1x1048576x2.ShapeCasts S5x1048576x2
  bcast_S5x8_S5x1x8_0_2 : S5x8.BroadcastsInDim S5x1x8 (![0, 2] : Fin 2 → Fin S5x1x8.rank)
  bcast_S5x1x8_S5x1048576x8_0_1_2 : S5x1x8.BroadcastsInDim S5x1048576x8 (![0, 1, 2] : Fin 3 → Fin S5x1048576x8.rank)
  slices_S5x1048576x8_S5x1048576x2_0_0_0 : S5x1048576x8.Slices ![0, 0, 0] S5x1048576x2
  slices_S5x1048576x8_S5x1048576x2_0_0_2 : S5x1048576x8.Slices ![0, 0, 2] S5x1048576x2
  slices_S5x1048576x8_S5x1048576x2_0_0_4 : S5x1048576x8.Slices ![0, 0, 4] S5x1048576x2
  slices_S5x1048576x8_S5x1048576x2_0_0_6 : S5x1048576x8.Slices ![0, 0, 6] S5x1048576x2
  bcast_S_S5x1048576x2 : S_.BroadcastsInDim S5x1048576x2 (![] : Fin 0 → Fin S5x1048576x2.rank)
  transposes_S5x1048576x2_S1048576x5x2_1_0_2 : S5x1048576x2.Transposes [1, 0, 2] S1048576x5x2
  shapeCasts_S1048576x5x2_S1048576x10 : S1048576x5x2.ShapeCasts S1048576x10
  shapeCasts_S1x1048576x14_S1048576x14 : S1x1048576x14.ShapeCasts S1048576x14
  concatenates_S1048576x10_S1048576x14_S1048576x24_d1 : Shape.Concatenates [S1048576x10, S1048576x14] S1048576x24 1
  transposes_S24x24_S24x24_1_0 : S24x24.Transposes [1, 0] S24x24
  bcast_S24_S1x24_1 : S24.BroadcastsInDim S1x24 (![1] : Fin 1 → Fin S1x24.rank)
  bcast_S1x24_S1048576x24_0_1 : S1x24.BroadcastsInDim S1048576x24 (![0, 1] : Fin 2 → Fin S1048576x24.rank)
  bcast_S_S1048576x24 : S_.BroadcastsInDim S1048576x24 (![] : Fin 0 → Fin S1048576x24.rank)
  transposes_S5x24_S24x5_1_0 : S5x24.Transposes [1, 0] S24x5
  bcast_S5_S1x5_1 : S5.BroadcastsInDim S1x5 (![1] : Fin 1 → Fin S1x5.rank)
  bcast_S1x5_S1048576x5_0_1 : S1x5.BroadcastsInDim S1048576x5 (![0, 1] : Fin 2 → Fin S1048576x5.rank)
  bcast_S_S1048576x5 : S_.BroadcastsInDim S1048576x5 (![] : Fin 0 → Fin S1048576x5.rank)
  dot_S5x1048576x2_S5x8x2_S5x1048576x8_2_2_1_1_0_0_wf : DotDims.WF S5x1048576x2 S5x8x2 S5x1048576x8 [2] [2] [1] [1] [0] [0]
  dot_S1048576x24_S24x24_S1048576x24_1_0_0_1_n_n_wf : DotDims.WF S1048576x24 S24x24 S1048576x24 [1] [0] [0] [1] [] []
  dot_S1048576x24_S24x5_S1048576x5_1_0_0_1_n_n_wf : DotDims.WF S1048576x24 S24x5 S1048576x5 [1] [0] [0] [1] [] []

variable [Facts₀]

def dot_S5x1048576x2_S5x8x2_S5x1048576x8_2_2_1_1_0_0 : DotDims S5x1048576x2 S5x8x2 S5x1048576x8 where
  lhsContracting := [2]
  rhsContracting := [2]
  lhsNonContracting := [1]
  rhsNonContracting := [1]
  lhsBatch := [0]
  rhsBatch := [0]
  wf := dot_S5x1048576x2_S5x8x2_S5x1048576x8_2_2_1_1_0_0_wf
def dot_S1048576x24_S24x24_S1048576x24_1_0_0_1_n_n : DotDims S1048576x24 S24x24 S1048576x24 where
  lhsContracting := [1]
  rhsContracting := [0]
  lhsNonContracting := [0]
  rhsNonContracting := [1]
  lhsBatch := []
  rhsBatch := []
  wf := dot_S1048576x24_S24x24_S1048576x24_1_0_0_1_n_n_wf
def dot_S1048576x24_S24x5_S1048576x5_1_0_0_1_n_n : DotDims S1048576x24 S24x5 S1048576x5 where
  lhsContracting := [1]
  rhsContracting := [0]
  lhsNonContracting := [0]
  rhsNonContracting := [1]
  lhsBatch := []
  rhsBatch := []
  wf := dot_S1048576x24_S24x5_S1048576x5_1_0_0_1_n_n_wf

class Facts : Prop extends Facts₀ where

variable [Facts]
-- ==== Proof.Spec.lean ====
/-
  One row of the model, as a function of that row's inputs and of the weights, over the extended reals.

  Five LSTM cells run for a single time step from zero state.  Cell `n` reads the two numbers `x n 0`, `x n 1` and
  forms eight gate pre-activations `x n 0 * w n 0 q + x n 1 * w n 1 q + bias n q` (`q < 8`: the input, forget, cell and
  output gates, two lanes each).  With zero initial state the forget gate drops out, and lane `j` of the cell's output is
  `σ(o_j) * tanh (σ(i_j) * tanh g_j)` with `i`, `g`, `o` the lanes `j`, `4 + j`, `6 + j`.  The ten cell outputs, cell by
  cell, followed by fourteen further inputs make a feature vector of length 24; a dense layer with a clamp at zero and a
  second dense layer with a logistic give the five outputs of the row.
-/
import Idealize.ShloMosaic.PureOps.Ideal
import Idealize.ShloMosaic.Lib.ValueIdx

noncomputable section

open scoped BigOperators
open Idealize.ShloMosaic

namespace Cert.LstmHead

/-- One gate pre-activation: the two inputs times their weights, plus the bias. -/
def gate (xa xb wa wb bias : EReal) : EReal := xa * wa + xb * wb + bias

/-- One lane of a cell's output after a single step from zero state, from its input, cell and output gates. -/
def cell (gi gg go : EReal) : EReal := Ideal.logistic go * Ideal.tanh (Ideal.logistic gi * Ideal.tanh gg)

/-- Lane `j` of a cell's output, from the cell's two inputs, its weight matrix and its bias row. -/
def hcell (xa xb : EReal) (w : Fin 2 → Fin 8 → EReal) (b : Fin 8 → EReal) (j : Fin 2) : EReal :=
  cell (gate xa xb (w 0 ⟨j.val, by have := j.isLt; omega⟩) (w 1 ⟨j.val, by have := j.isLt; omega⟩) (b ⟨j.val, by have := j.isLt; omega⟩))
    (gate xa xb (w 0 ⟨4 + j.val, by have := j.isLt; omega⟩) (w 1 ⟨4 + j.val, by have := j.isLt; omega⟩) (b ⟨4 + j.val, by have := j.isLt; omega⟩))
    (gate xa xb (w 0 ⟨6 + j.val, by have := j.isLt; omega⟩) (w 1 ⟨6 + j.val, by have := j.isLt; omega⟩) (b ⟨6 + j.val, by have := j.isLt; omega⟩))

/-- Lane `j` of cell `n`'s output. -/
def hval (x : Fin 5 → Fin 2 → EReal) (w : Fin 5 → Fin 2 → Fin 8 → EReal) (bias : Fin 5 → Fin 8 → EReal)
    (n : Fin 5) (j : Fin 2) : EReal :=
  hcell (x n 0) (x n 1) (w n) (bias n) j

/-- The feature vector: the cells' outputs, cell by cell, then the fourteen other inputs. -/
def feat (h : Fin 5 → Fin 2 → EReal) (oth : Fin 14 → EReal) (k : Fin 24) : EReal :=
  if hk : k.val < 10 then h ⟨k.val / 2, by omega⟩ ⟨k.val % 2, by omega⟩
  else oth ⟨k.val - 10, by have := k.isLt; omega⟩

/-- The hidden layer: a dense layer clamped at zero. `w1 k r` is the weight from feature `k` to unit `r`. -/
def hidden (f : Fin 24 → EReal) (w1 : Fin 24 → Fin 24 → EReal) (b1 : Fin 24 → EReal) (r : Fin 24) : EReal :=
  max (∑ k : Fin 24, f k * w1 k r + b1 r) 0

/-- The output layer: a dense layer followed by the logistic function. -/
def out (hd : Fin 24 → EReal) (w2 : Fin 24 → Fin 5 → EReal) (b2 : Fin 5 → EReal) (o : Fin 5) : EReal :=
  Ideal.logistic (∑ k : Fin 24, hd k * w2 k o + b2 o)

/-- Output `o` of a row. -/
def row (x : Fin 5 → Fin 2 → EReal) (oth : Fin 14 → EReal) (w : Fin 5 → Fin 2 → Fin 8 → EReal)
    (bias : Fin 5 → Fin 8 → EReal) (w1 : Fin 24 → Fin 24 → EReal) (b1 : Fin 24 → EReal)
    (w2 : Fin 24 → Fin 5 → EReal) (b2 : Fin 5 → EReal) (o : Fin 5) : EReal :=
  out (hidden (feat (hval x w bias) oth) w1 b1) w2 b2 o

/-! ## The whole batch -/

open Idealize.ShloMosaic.ValueIdx in
/-- The result `[1048576, 5]` as one function of the argument arrays: entry `(b, o)` is output `o` of the row function at
    batch row `b` — sequence `n`'s input `c` is `seqs (n, 0, b, c)`; the cells' weights come in the layout "gate lane before
    input index" and the two bias vectors are added; the dense layers' weights come "unit before feature". -/
def G (seqs : (⟨4, ![5, 1, 1048576, 2]⟩ : Shape).Idx → EReal) (others : (⟨3, ![1, 1048576, 14]⟩ : Shape).Idx → EReal)
    (wih : (⟨3, ![5, 8, 2]⟩ : Shape).Idx → EReal) (bih bhh : (⟨2, ![5, 8]⟩ : Shape).Idx → EReal)
    (w1 : (⟨2, ![24, 24]⟩ : Shape).Idx → EReal) (b1 : (⟨1, ![24]⟩ : Shape).Idx → EReal)
    (w2 : (⟨2, ![5, 24]⟩ : Shape).Idx → EReal) (b2 : (⟨1, ![5]⟩ : Shape).Idx → EReal) :
    (⟨2, ![1048576, 5]⟩ : Shape).Idx → EReal := fun i =>
  row (fun n c => seqs (ix4 n (0 : Fin 1) (i 0 : Fin 1048576) c)) (fun c => others (ix3 (0 : Fin 1) (i 0 : Fin 1048576) c))
    (fun n h g => wih (ix3 n g h)) (fun n g => bih (ix2 n g) + bhh (ix2 n g)) (fun k r => w1 (ix2 r k)) (fun r => b1 (ix1 r))
    (fun k o => w2 (ix2 o k)) (fun o => b2 (ix1 o)) (i 1 : Fin 5)

end Cert.LstmHead

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.RowBody.lean ====
/-
  The vector operations a kernel body performs on a tile of `R` rows, read at one entry, over the extended reals.

  A tile holds `R` rows of the batch.  For one cell the body takes the two input columns `[R, 1]`, spreads each along eight
  lanes, multiplies by the matching row of the cell's `[2, 8]` weight matrix spread down the rows, adds the two products
  and the bias row; entry `(p, q)` of the result is the gate pre-activation `gate` of row `p`, lane `q`.  The cell's output
  `[R, 2]` is cut out of the lanes `0–1`, `4–5`, `6–7` of that matrix; entry `(p, j)` is `cell` of the lanes `j`, `4 + j`,
  `6 + j` of row `p`.  Five such outputs laid side by side and followed by the fourteen other columns give the feature
  matrix `[R, 24]`, whose entry `(p, k)` is `feat` of row `p`.
-/
import Idealize.ShloMosaic.PureOps.Ideal.Laws
import Idealize.ShloMosaic.Lib.ValueIdx
import Idealize.ShloMosaic.Lib.ValueLayout
import Idealize.ShloMosaic.Lib.Pipeline.Value
import proofs.«131684_j64330020159577_2_alg».proof.Proof.Spec
import proofs.«131684_j64330020159577_2_alg».proof.Proof.LibColumnLayout

noncomputable section

open scoped BigOperators
open Idealize.ShloMosaic Idealize.ShloMosaic.ValueIdx

namespace Cert.LstmHead

variable {R : ℕ}

/-! ## The gate pre-activations of a tile -/

/-- The eight gate pre-activations of every row of the tile, from the two input columns, the cell's weight matrix and
    its bias row. -/
def gatesV (xa xb : FVec Ideal ⟨2, ![R, 1]⟩ .f32) (w : FVec Ideal ⟨2, ![2, 8]⟩ .f32) (bias : FVec Ideal ⟨2, ![1, 8]⟩ .f32)
    (hs0 : (⟨2, ![2, 8]⟩ : Shape).Slices ![0, 0] ⟨2, ![1, 8]⟩) (hs1 : (⟨2, ![2, 8]⟩ : Shape).Slices ![1, 0] ⟨2, ![1, 8]⟩)
    (hc : (⟨2, ![R, 1]⟩ : Shape).Broadcasts ⟨2, ![R, 8]⟩) (hr : (⟨2, ![1, 8]⟩ : Shape).Broadcasts ⟨2, ![R, 8]⟩) :
    FVec Ideal ⟨2, ![R, 8]⟩ .f32 :=
  addf (addf (mulf (broadcastTo ⟨2, ![R, 8]⟩ xa hc) (broadcastTo ⟨2, ![R, 8]⟩ (extractStridedSlice ⟨2, ![1, 8]⟩ ![0, 0] w hs0) hr))
      (mulf (broadcastTo ⟨2, ![R, 8]⟩ xb hc) (broadcastTo ⟨2, ![R, 8]⟩ (extractStridedSlice ⟨2, ![1, 8]⟩ ![1, 0] w hs1) hr)))
    (broadcastTo ⟨2, ![R, 8]⟩ bias hr)

/-- Entry `(p, q)`: the gate pre-activation of row `p`, lane `q`. -/
theorem gatesV_apply (xa xb : FVec Ideal ⟨2, ![R, 1]⟩ .f32) (w : FVec Ideal ⟨2, ![2, 8]⟩ .f32) (bias : FVec Ideal ⟨2, ![1, 8]⟩ .f32)
    (hs0 : (⟨2, ![2, 8]⟩ : Shape).Slices ![0, 0] ⟨2, ![1, 8]⟩) (hs1 : (⟨2, ![2, 8]⟩ : Shape).Slices ![1, 0] ⟨2, ![1, 8]⟩)
    (hc : (⟨2, ![R, 1]⟩ : Shape).Broadcasts ⟨2, ![R, 8]⟩) (hr : (⟨2, ![1, 8]⟩ : Shape).Broadcasts ⟨2, ![R, 8]⟩)
    (p : Fin R) (q : Fin 8) :
    gatesV xa xb w bias hs0 hs1 hc hr (ix2 p q)
      = gate (xa (ix2 p 0)) (xb (ix2 p 0)) (w (ix2 0 q)) (w (ix2 1 q)) (bias (ix2 0 q)) := by
  show (broadcastTo ⟨2, ![R, 8]⟩ xa hc (ix2 p q) * broadcastTo ⟨2, ![R, 8]⟩ (extractStridedSlice ⟨2, ![1, 8]⟩ ![0, 0] w hs0) hr (ix2 p q)
      + broadcastTo ⟨2, ![R, 8]⟩ xb hc (ix2 p q) * broadcastTo ⟨2, ![R, 8]⟩ (extractStridedSlice ⟨2, ![1, 8]⟩ ![1, 0] w hs1) hr (ix2 p q))
      + broadcastTo ⟨2, ![R, 8]⟩ bias hr (ix2 p q) = _
  rw [Cert.ColumnLayout.broadcastTo_a1_ab_apply xa hc p q, Cert.ColumnLayout.broadcastTo_a1_ab_apply xb hc p q,
    broadcastTo_1b_ab_apply _ hr p q, broadcastTo_1b_ab_apply _ hr p q, broadcastTo_1b_ab_apply bias hr p q,
    slice2_axis0_apply 0 w hs0 (0 : Fin 1) q (0 : Fin 2) rfl, slice2_axis0_apply 1 w hs1 (0 : Fin 1) q (1 : Fin 2) rfl]
  rfl

/-! ## A cell's output on a tile -/

/-- The cell's output from the gate pre-activations: the output gate's logistic times the hyperbolic tangent of the new
    cell state, which from zero state is the input gate's logistic times the hyperbolic tangent of the cell gate. -/
def cellV (G : FVec Ideal ⟨2, ![R, 8]⟩ .f32)
    (h0 : (⟨2, ![R, 8]⟩ : Shape).Slices ![0, 0] ⟨2, ![R, 2]⟩) (h4 : (⟨2, ![R, 8]⟩ : Shape).Slices ![0, 4] ⟨2, ![R, 2]⟩)
    (h6 : (⟨2, ![R, 8]⟩ : Shape).Slices ![0, 6] ⟨2, ![R, 2]⟩) : FVec Ideal ⟨2, ![R, 2]⟩ .f32 :=
  mulf (logistic (extractStridedSlice ⟨2, ![R, 2]⟩ ![0, 6] G h6))
    (tanh (mulf (logistic (extractStridedSlice ⟨2, ![R, 2]⟩ ![0, 0] G h0)) (tanh (extractStridedSlice ⟨2, ![R, 2]⟩ ![0, 4] G h4))))

/-- Entry `(p, j)`: `cell` of the lanes `j`, `4 + j`, `6 + j` of row `p`. -/
theorem cellV_apply (G : FVec Ideal ⟨2, ![R, 8]⟩ .f32)
    (h0 : (⟨2, ![R, 8]⟩ : Shape).Slices ![0, 0] ⟨2, ![R, 2]⟩) (h4 : (⟨2, ![R, 8]⟩ : Shape).Slices ![0, 4] ⟨2, ![R, 2]⟩)
    (h6 : (⟨2, ![R, 8]⟩ : Shape).Slices ![0, 6] ⟨2, ![R, 2]⟩) (p : Fin R) (j : Fin 2) :
    cellV G h0 h4 h6 (ix2 p j)
      = cell (G (ix2 p ⟨j.val, by have := j.isLt; omega⟩)) (G (ix2 p ⟨4 + j.val, by have := j.isLt; omega⟩))
          (G (ix2 p ⟨6 + j.val, by have := j.isLt; omega⟩)) := by
  show Ideal.logistic (extractStridedSlice ⟨2, ![R, 2]⟩ ![0, 6] G h6 (ix2 p j))
      * Ideal.tanh (Ideal.logistic (extractStridedSlice ⟨2, ![R, 2]⟩ ![0, 0] G h0 (ix2 p j))
        * Ideal.tanh (extractStridedSlice ⟨2, ![R, 2]⟩ ![0, 4] G h4 (ix2 p j))) = _
  rw [slice2_axis1_apply 6 G h6 p j ⟨6 + j.val, by have := j.isLt; omega⟩ rfl,
    slice2_axis1_apply 0 G h0 p j ⟨j.val, by have := j.isLt; omega⟩ (Nat.zero_add _).symm,
    slice2_axis1_apply 4 G h4 p j ⟨4 + j.val, by have := j.isLt; omega⟩ rfl]
  rfl

/-! ## A cell's input columns, cut out of the tile of sequences -/

/-- Column `c` of sequence `n`: the tile `[5, 1, R, 2]` without its unit axis, sequence `n` cut out and flattened to
    `[R, 2]`, column `c` cut out of that, reads at row `p` the tile's entry `(n, 0, p, c)`. -/
theorem seqCol_apply {α : Type} (x0 : (⟨4, ![5, 1, R, 2]⟩ : Shape).Idx → α) (n : ℕ) (hn : n < 5) (c : ℕ) (hc : c < 2)
    (h1 : (⟨4, ![5, 1, R, 2]⟩ : Shape).ShapeCasts ⟨3, ![5, R, 2]⟩)
    (h2 : (⟨3, ![5, R, 2]⟩ : Shape).Slices ![n, 0, 0] ⟨3, ![1, R, 2]⟩)
    (h3 : (⟨3, ![1, R, 2]⟩ : Shape).ShapeCasts ⟨2, ![R, 2]⟩)
    (h4 : (⟨2, ![R, 2]⟩ : Shape).Slices ![0, c] ⟨2, ![R, 1]⟩) (p : Fin R) :
    extractStridedSlice ⟨2, ![R, 1]⟩ ![0, c]
        (shapeCast ⟨2, ![R, 2]⟩ (extractStridedSlice ⟨3, ![1, R, 2]⟩ ![n, 0, 0] (shapeCast ⟨3, ![5, R, 2]⟩ x0 h1) h2) h3) h4
        (ix2 p (0 : Fin 1))
      = x0 (ix4 ⟨n, hn⟩ (0 : Fin 1) p ⟨c, hc⟩) := by
  rw [slice2_axis1_apply c _ h4 p (0 : Fin 1) ⟨c, hc⟩ (Nat.add_zero _).symm, shapeCast_1ab_ab_apply _ h3 p ⟨c, hc⟩,
    extractStridedSlice_apply ![n, 0, 0] _ h2 (ix3 (0 : Fin 1) p ⟨c, hc⟩) (ix3 ⟨n, hn⟩ p ⟨c, hc⟩) (fun a => by
      match a with
      | ⟨0, _⟩ => exact (Nat.add_zero _).symm
      | ⟨1, _⟩ => exact (Nat.zero_add _).symm
      | ⟨2, _⟩ => exact (Nat.zero_add _).symm),
    shapeCast_apply x0 h1 (ix3 ⟨n, hn⟩ p ⟨c, hc⟩) (ix4 ⟨n, hn⟩ (0 : Fin 1) p ⟨c, hc⟩) (by
      rw [Shape.rowMajor_val_four, Shape.rowMajor_val_three]
      show ((n * 1 + 0) * R + p.val) * 2 + c = (n * R + p.val) * 2 + c
      rw [Nat.mul_one, Nat.add_zero])]

/-! ## A cell on a tile, from the tile of sequences and the cell's loaded weights -/

/-- Cell `n`'s output on the tile, at the entry `(p, j)`: the sequences' tile `[5, 1, R, 2]` gives the two input columns, the
    loaded `[1, 2, 8]` block the weight matrix, the loaded `[1, 1, 8]` block the bias row. -/
theorem cellTile_apply (v0 : (⟨4, ![5, 1, R, 2]⟩ : Shape).Idx → EReal) (wl : (⟨3, ![1, 2, 8]⟩ : Shape).Idx → EReal)
    (bl : (⟨3, ![1, 1, 8]⟩ : Shape).Idx → EReal) (n : ℕ) (hn : n < 5)
    (h1 : (⟨4, ![5, 1, R, 2]⟩ : Shape).ShapeCasts ⟨3, ![5, R, 2]⟩)
    (h2 : (⟨3, ![5, R, 2]⟩ : Shape).Slices ![n, 0, 0] ⟨3, ![1, R, 2]⟩)
    (h3 : (⟨3, ![1, R, 2]⟩ : Shape).ShapeCasts ⟨2, ![R, 2]⟩)
    (h40 : (⟨2, ![R, 2]⟩ : Shape).Slices ![0, 0] ⟨2, ![R, 1]⟩) (h41 : (⟨2, ![R, 2]⟩ : Shape).Slices ![0, 1] ⟨2, ![R, 1]⟩)
    (hw : (⟨3, ![1, 2, 8]⟩ : Shape).ShapeCasts ⟨2, ![2, 8]⟩) (hb : (⟨3, ![1, 1, 8]⟩ : Shape).ShapeCasts ⟨2, ![1, 8]⟩)
    (hs0 : (⟨2, ![2, 8]⟩ : Shape).Slices ![0, 0] ⟨2, ![1, 8]⟩) (hs1 : (⟨2, ![2, 8]⟩ : Shape).Slices ![1, 0] ⟨2, ![1, 8]⟩)
    (hc : (⟨2, ![R, 1]⟩ : Shape).Broadcasts ⟨2, ![R, 8]⟩) (hr : (⟨2, ![1, 8]⟩ : Shape).Broadcasts ⟨2, ![R, 8]⟩)
    (h0 : (⟨2, ![R, 8]⟩ : Shape).Slices ![0, 0] ⟨2, ![R, 2]⟩) (h4 : (⟨2, ![R, 8]⟩ : Shape).Slices ![0, 4] ⟨2, ![R, 2]⟩)
    (h6 : (⟨2, ![R, 8]⟩ : Shape).Slices ![0, 6] ⟨2, ![R, 2]⟩) (p : Fin R) (j : Fin 2) :
    cellV (gatesV
        (extractStridedSlice ⟨2, ![R, 1]⟩ ![0, 0]
          (shapeCast ⟨2, ![R, 2]⟩ (extractStridedSlice ⟨3, ![1, R, 2]⟩ ![n, 0, 0] (shapeCast ⟨3, ![5, R, 2]⟩ v0 h1) h2) h3) h40)
        (extractStridedSlice ⟨2, ![R, 1]⟩ ![0, 1]
          (shapeCast ⟨2, ![R, 2]⟩ (extractStridedSlice ⟨3, ![1, R, 2]⟩ ![n, 0, 0] (shapeCast ⟨3, ![5, R, 2]⟩ v0 h1) h2) h3) h41)
        (shapeCast ⟨2, ![2, 8]⟩ wl hw) (shapeCast ⟨2, ![1, 8]⟩ bl hb) hs0 hs1 hc hr) h0 h4 h6 (ix2 p j)
      = hcell (v0 (ix4 ⟨n, hn⟩ (0 : Fin 1) p (0 : Fin 2))) (v0 (ix4 ⟨n, hn⟩ (0 : Fin 1) p (1 : Fin 2)))
          (fun h g => wl (ix3 (0 : Fin 1) h g)) (fun g => bl (ix3 (0 : Fin 1) (0 : Fin 1) g)) j := by
  rw [cellV_apply, gatesV_apply, gatesV_apply, gatesV_apply,
    seqCol_apply v0 n hn 0 (by decide) h1 h2 h3 h40 p, seqCol_apply v0 n hn 1 (by decide) h1 h2 h3 h41 p]
  simp only [shapeCast_1ab_ab_apply]
  rfl

/-! ## The feature matrix -/

/-- Entry `(p, k)` of the five cell outputs laid side by side and followed by the other columns: for `k < 10` lane
    `k % 2` of cell `k / 2`, otherwise the other column `k - 10`, each at row `p` (`f` and `g` name the pieces' entries
    at that row). -/
theorem featV_apply {α : Type} (c0 c1 c2 c3 c4 : (⟨2, ![R, 2]⟩ : Shape).Idx → α) (oth : (⟨2, ![R, 14]⟩ : Shape).Idx → α)
    (h5 : Shape.Concatenates [(⟨2, ![R, 2]⟩ : Shape), ⟨2, ![R, 2]⟩, ⟨2, ![R, 2]⟩, ⟨2, ![R, 2]⟩, ⟨2, ![R, 2]⟩] ⟨2, ![R, 10]⟩ 1)
    (h2 : Shape.Concatenates [(⟨2, ![R, 10]⟩ : Shape), ⟨2, ![R, 14]⟩] ⟨2, ![R, 24]⟩ 1) (p : Fin R) (k : Fin 24)
    (f : Fin 5 → Fin 2 → α) (g : Fin 14 → α)
    (hf0 : ∀ j, c0 (ix2 p j) = f 0 j) (hf1 : ∀ j, c1 (ix2 p j) = f 1 j) (hf2 : ∀ j, c2 (ix2 p j) = f 2 j)
    (hf3 : ∀ j, c3 (ix2 p j) = f 3 j) (hf4 : ∀ j, c4 (ix2 p j) = f 4 j) (hg : ∀ q, oth (ix2 p q) = g q) :
    concatenate ⟨2, ![R, 24]⟩ 1
        [⟨⟨2, ![R, 10]⟩, concatenate ⟨2, ![R, 10]⟩ 1 [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5⟩,
          ⟨⟨2, ![R, 14]⟩, oth⟩] h2 (ix2 p k)
      = if hk : k.val < 10 then f ⟨k.val / 2, by omega⟩ ⟨k.val % 2, by omega⟩
        else g ⟨k.val - 10, by have := k.isLt; omega⟩ := by
  by_cases hk : k.val < 10
  · rw [dif_pos hk]
    rw [concatenate_pair_apply_left (t := ⟨2, ![R, 24]⟩) (1 : Fin 2) (concatenate ⟨2, ![R, 10]⟩ 1 [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5) oth h2 (ix2 p k) rfl
      (ix2 p (⟨k.val, hk⟩ : Fin 10)) (fun b => by
      match b with
      | ⟨0, _⟩ => rfl
      | ⟨1, _⟩ => rfl)]
    have hj : k.val % 2 < 2 := by omega
    have hcases : k.val / 2 = 0 ∨ k.val / 2 = 1 ∨ k.val / 2 = 2 ∨ k.val / 2 = 3 ∨ k.val / 2 = 4 := by omega
    have hoff : ∀ b : Fin 2, b.cast rfl ≠ (1 : Fin 2) →
        ((ix2 p (⟨k.val % 2, hj⟩ : Fin 2)) b).val = ((ix2 p (⟨k.val, hk⟩ : Fin 10)) (b.cast rfl)).val := fun b hb => by
      match b with
      | ⟨0, _⟩ => rfl
      | ⟨1, _⟩ => exact absurd rfl hb
    rcases hcases with h | h | h | h | h
    · rw [show (⟨k.val / 2, by omega⟩ : Fin 5) = 0 from Fin.ext h, ← hf0]
      exact concatenate_apply_piece (t := ⟨2, ![R, 10]⟩) (1 : Fin 2) [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5 (ix2 p (⟨k.val, hk⟩ : Fin 10)) 0 (by show 0 < 5; omega) ⟨2, ![R, 2]⟩ c0 rfl rfl 0 rfl
        (ix2 p ⟨k.val % 2, hj⟩) hoff (by show 0 + k.val % 2 = k.val; omega)
    · rw [show (⟨k.val / 2, by omega⟩ : Fin 5) = 1 from Fin.ext h, ← hf1]
      exact concatenate_apply_piece (t := ⟨2, ![R, 10]⟩) (1 : Fin 2) [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5 (ix2 p (⟨k.val, hk⟩ : Fin 10)) 1 (by show 1 < 5; omega) ⟨2, ![R, 2]⟩ c1 rfl rfl 2 rfl
        (ix2 p ⟨k.val % 2, hj⟩) hoff (by show 2 + k.val % 2 = k.val; omega)
    · rw [show (⟨k.val / 2, by omega⟩ : Fin 5) = 2 from Fin.ext h, ← hf2]
      exact concatenate_apply_piece (t := ⟨2, ![R, 10]⟩) (1 : Fin 2) [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5 (ix2 p (⟨k.val, hk⟩ : Fin 10)) 2 (by show 2 < 5; omega) ⟨2, ![R, 2]⟩ c2 rfl rfl 4 rfl
        (ix2 p ⟨k.val % 2, hj⟩) hoff (by show 4 + k.val % 2 = k.val; omega)
    · rw [show (⟨k.val / 2, by omega⟩ : Fin 5) = 3 from Fin.ext h, ← hf3]
      exact concatenate_apply_piece (t := ⟨2, ![R, 10]⟩) (1 : Fin 2) [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5 (ix2 p (⟨k.val, hk⟩ : Fin 10)) 3 (by show 3 < 5; omega) ⟨2, ![R, 2]⟩ c3 rfl rfl 6 rfl
        (ix2 p ⟨k.val % 2, hj⟩) hoff (by show 6 + k.val % 2 = k.val; omega)
    · rw [show (⟨k.val / 2, by omega⟩ : Fin 5) = 4 from Fin.ext h, ← hf4]
      exact concatenate_apply_piece (t := ⟨2, ![R, 10]⟩) (1 : Fin 2) [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5 (ix2 p (⟨k.val, hk⟩ : Fin 10)) 4 (by show 4 < 5; omega) ⟨2, ![R, 2]⟩ c4 rfl rfl 8 rfl
        (ix2 p ⟨k.val % 2, hj⟩) hoff (by show 8 + k.val % 2 = k.val; omega)
  · rw [dif_neg hk, ← hg]
    exact concatenate_pair_apply_right (t := ⟨2, ![R, 24]⟩) (1 : Fin 2) (concatenate ⟨2, ![R, 10]⟩ 1 [⟨⟨2, ![R, 2]⟩, c0⟩, ⟨⟨2, ![R, 2]⟩, c1⟩, ⟨⟨2, ![R, 2]⟩, c2⟩, ⟨⟨2, ![R, 2]⟩, c3⟩, ⟨⟨2, ![R, 2]⟩, c4⟩] h5) oth h2 (ix2 p k) rfl rfl
      (ix2 p ⟨k.val - 10, by have := k.isLt; omega⟩)
      (fun b hb => by
        match b with
        | ⟨0, _⟩ => rfl
        | ⟨1, _⟩ => exact absurd rfl hb)
      (by show (k.val - 10) + 10 = k.val; omega)

end Cert.LstmHead

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDense.lean ====
/-
  The body of a dense layer read at an entry, over the extended reals: a plain product into the zero matrix plus a bias
  row `[1, N]` repeated down the rows is, at the entry `(p, q)`, `∑ k, x (p, k) * w (k, q) + b (0, q)`.
-/
import Idealize.ShloMosaic.PureOps.Ideal.Laws
import Idealize.ShloMosaic.Lib.ValueIdx
import Idealize.ShloMosaic.Lib.Pipeline.Value
import proofs.«131684_j64330020159577_2_alg».proof.Proof.LibMatmul

noncomputable section

open scoped BigOperators
open Idealize.ShloMosaic Idealize.ShloMosaic.ValueIdx

namespace DenseBody

variable {M K N : ℕ}

/-- A row `[1, N]` repeated down `M` rows has, at `(p, q)`, the row's entry `q`. -/
theorem row_apply {α : Type} (b : (⟨2, ![1, N]⟩ : Shape).Idx → α)
    (h : (⟨2, ![1, N]⟩ : Shape).Broadcasts (⟨2, ![M, N]⟩ : Shape)) (p : Fin M) (q : Fin N) :
    broadcastTo (⟨2, ![M, N]⟩ : Shape) b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split
    · have := q.isLt; omega
    · rfl

/-- The product into the zero matrix plus the repeated bias row, at the entry `(p, q)`. -/
theorem apply {φ₁ φ₂ : FTy} {d : DotDims (⟨2, ![M, K]⟩ : Shape) (⟨2, ![K, N]⟩ : Shape) (⟨2, ![M, N]⟩ : Shape)}
    (hd : PlainMatmul.IsPlain d) (prec : Option ContractPrecision)
    (x : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts (⟨2, ![M, N]⟩ : Shape))
    (p : Fin M) (q : Fin N) :
    addf (matmul d prec x w (constant (⟨2, ![M, N]⟩ : Shape) .f32 0x00000000#32)) (broadcastTo (⟨2, ![M, N]⟩ : Shape) b hb) (ix2 p q)
      = (∑ k : Fin K, (x (ix2 p k) : EReal) * (w (ix2 k q) : EReal)) + (b (ix2 0 q) : EReal) := by
  show FloatOps.matmul d prec x w (constant (⟨2, ![M, N]⟩ : Shape) .f32 0x00000000#32) (ix2 p q)
      + broadcastTo (⟨2, ![M, N]⟩ : Shape) b hb (ix2 p q) = _
  rw [PlainMatmul.apply hd, row_apply]

end DenseBody

end
-- ==== Proof.LibDenseActivation.lean ====
/-
  A dense layer followed by an activation, read at an entry, over the extended reals.

  The layer is a plain matrix product `[M, K] × [K, N]` into the zero matrix plus a bias row `[1, N]` repeated down the
  `M` rows, all in single precision (no narrowing of the operands).  Clamped at zero against the splat of the zero
  scalar, its entry `(p, r)` is `max (∑ k, x (p, k) * w (k, r) + b (0, r)) 0`; under the logistic function its entry
  `(p, o)` is the logistic of `∑ k, x (p, k) * w (k, o) + b (0, o)`.
-/
import Idealize.ShloMosaic.PureOps.Ideal.Laws
import Idealize.ShloMosaic.Lib.ValueIdx
import Idealize.ShloMosaic.Lib.Pipeline.Value
import proofs.«131684_j64330020159577_2_alg».proof.Proof.LibDense

noncomputable section

open scoped BigOperators
open Idealize.ShloMosaic Idealize.ShloMosaic.ValueIdx

namespace DenseActivation

/-- A dense layer clamped at zero, at the entry `(p, r)`. -/
theorem reluDense_apply {M K N : ℕ} {d : DotDims (⟨2, ![M, K]⟩ : Shape) (⟨2, ![K, N]⟩ : Shape) (⟨2, ![M, N]⟩ : Shape)}
    (hd : PlainMatmul.IsPlain d) (x : FVec Ideal ⟨2, ![M, K]⟩ .f32) (w : FVec Ideal ⟨2, ![K, N]⟩ .f32)
    (b : FVec Ideal ⟨2, ![1, N]⟩ .f32) (hb : (⟨2, ![1, N]⟩ : Shape).Broadcasts ⟨2, ![M, N]⟩) (p : Fin M) (r : Fin N) :
    maximumf (addf (matmul d none x w (constant ⟨2, ![M, N]⟩ .f32 0x00000000#32)) (broadcastTo ⟨2, ![M, N]⟩ b hb))
        (broadcast ⟨2, ![M, N]⟩ (Scalar.ofBits (F := Ideal) .f32 0x00000000#32)) (ix2 p r)
      = max ((∑ k : Fin K, (x (ix2 p k) : EReal) * (w (ix2 k r) : EReal)) + (b (ix2 0 r) : EReal)) 0 := by
  show max (addf (matmul d none x w (constant ⟨2, ![M, N]⟩ .f32 0x00000000#32)) (broadcastTo ⟨2, ![M, N]⟩ b hb) (ix2 p r))
      (Ideal.ofBits .f32 0x00000000#32) = _
  rw [DenseBody.apply hd, Ideal.ofBits_zero_f32]

/-- A dense layer followed by the logistic function, at the entry `(p, o)`. -/
theorem logisticDense_apply {M K N : ℕ} {d : DotDims (⟨2, ![M, K]⟩ : Shape) (⟨2, ![K, N]⟩ : Shape) (⟨2, ![M, N]⟩ : Shape)}
    (hd : PlainMatmul.IsPlain d) (x : FVec Ideal ⟨2, ![M, K]⟩ .f32) (w : FVec Ideal ⟨2, ![K, N]⟩ .f32)
    (b : FVec Ideal ⟨2, ![1, N]⟩ .f32) (hb : (⟨2, ![1, N]⟩ : Shape).Broadcasts ⟨2, ![M, N]⟩) (p : Fin M) (o : Fin N) :
    logistic (addf (matmul d none x w (constant ⟨2, ![M, N]⟩ .f32 0x00000000#32)) (broadcastTo ⟨2, ![M, N]⟩ b hb)) (ix2 p o)
      = Ideal.logistic ((∑ k : Fin K, (x (ix2 p k) : EReal) * (w (ix2 k o) : EReal)) + (b (ix2 0 o) : EReal)) := by
  show Ideal.logistic (addf (matmul d none x w (constant ⟨2, ![M, N]⟩ .f32 0x00000000#32)) (broadcastTo ⟨2, ![M, N]⟩ b hb) (ix2 p o)) = _
  rw [DenseBody.apply hd]

end DenseActivation

end
-- ==== Proof.KernelRow.lean ====
/-
  What the kernel body leaves in its output tile, entry by entry.

  At a grid point the body sees a tile of 2048 rows: the five sequences' inputs `[5, 1, 2048, 2]`, the other inputs
  `[1, 2048, 14]`, and, whole, the stacked cell weights `[5, 2, 8]` (input index before gate lane), the stacked bias rows
  `[5, 1, 8]`, the two dense layers' weight matrices (input index first) and their bias rows.  It stores one tile
  `[2048, 5]`.  Entry `(p, q)` of that tile is output `q` of the model's row function `row` at the inputs of the tile's row
  `p`: each of the five cells is the same chain of vector operations on its own slice of the inputs and its own block of
  the weights, the feature matrix is their outputs side by side with the other inputs, and the two matrix products
  into zero plus a bias row are the dense layers.
-/
import proofs.«131684_j64330020159577_2_alg».proof.Proof.Gen.KernelIdeal.Frame
import proofs.«131684_j64330020159577_2_alg».proof.Proof.RowBody
import proofs.«131684_j64330020159577_2_alg».proof.Proof.LibDenseActivation

set_option maxRecDepth 16384

noncomputable section

open scoped BigOperators

namespace Cert.KernelIdeal.Row

open Cert.KernelIdeal Cert.KernelIdeal.Gen Idealize.ShloMosaic Idealize.ShloMosaic.ValueIdx Cert.LstmHead DenseActivation

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Both matrix products of the body contract the left operand's columns with the right operand's rows. -/
theorem plain1 : PlainMatmul.IsPlain dot_S2048x24_S24x24_S2048x24_1_0_0_1_n_n := ⟨rfl, rfl, rfl, rfl, rfl, rfl⟩
theorem plain2 : PlainMatmul.IsPlain dot_S2048x24_S24x5_S2048x5_1_0_0_1_n_n := ⟨rfl, rfl, rfl, rfl, rfl, rfl⟩

/-- Cell `n`'s weight block, loaded out of the stack, reads the stack at `(n, h, g)`. -/
theorem ld_w (x2 : Vec Ideal S5x2x8 .f32) (n : ℕ) (hn : n < 5)
    (inb : ∀ a, (![n, 0, 0] : Fin 3 → Nat) a + S1x2x8.size a ≤ S5x2x8.size a) (h : Fin 2) (g : Fin 8) :
    View.ld x2 (Rect.unit (s := S5x2x8) ![n, 0, 0] S1x2x8.size inb) (ix3 (0 : Fin 1) h g) = x2 (ix3 ⟨n, hn⟩ h g) := by
  refine congrArg x2 (funext fun a => Fin.ext ?_)
  match a with
  | ⟨0, _⟩ => show n + 1 * 0 = n; omega
  | ⟨1, _⟩ => show 0 + 1 * h.val = h.val; omega
  | ⟨2, _⟩ => show 0 + 1 * g.val = g.val; omega

/-- Cell `n`'s bias row, loaded out of the stack, reads the stack at `(n, 0, g)`. -/
theorem ld_b (x3 : Vec Ideal S5x1x8 .f32) (n : ℕ) (hn : n < 5)
    (inb : ∀ a, (![n, 0, 0] : Fin 3 → Nat) a + S1x1x8.size a ≤ S5x1x8.size a) (g : Fin 8) :
    View.ld x3 (Rect.unit (s := S5x1x8) ![n, 0, 0] S1x1x8.size inb) (ix3 (0 : Fin 1) (0 : Fin 1) g) = x3 (ix3 ⟨n, hn⟩ (0 : Fin 1) g) := by
  refine congrArg x3 (funext fun a => Fin.ext ?_)
  match a with
  | ⟨0, _⟩ => show n + 1 * 0 = n; omega
  | ⟨1, _⟩ => show 0 + 1 * 0 = 0; omega
  | ⟨2, _⟩ => show 0 + 1 * g.val = g.val; omega

/-- The stored value at `(p, q)`, from what its pieces are at row `p`: `f n j` names lane `j` of cell `n`'s output there
    (the fifth cell's output is formed inside this step from its gate pre-activations) and `g c` the other input `c`. -/
theorem pay1_apply (v3 : FVec Ideal S2048x14 .f32) (v32 v61 v90 v119 : FVec Ideal S2048x2 .f32) (v138 : FVec Ideal S2048x8 .f32)
    (v139 v141 : FVec Ideal S2048x2 .f32) (v151 : Vec Ideal S24x24 .f32) (v154 : Vec Ideal S1x24 .f32)
    (v160 : Vec Ideal S24x5 .f32) (v163 : Vec Ideal S1x5 .f32) (p : Fin 2048) (q : Fin 5)
    (f : Fin 5 → Fin 2 → EReal) (g : Fin 14 → EReal)
    (h0 : ∀ j, v32 (ix2 p j) = f 0 j) (h1 : ∀ j, v61 (ix2 p j) = f 1 j) (h2 : ∀ j, v90 (ix2 p j) = f 2 j)
    (h3 : ∀ j, v119 (ix2 p j) = f 3 j)
    (h4 : ∀ j, mulf (logistic (extractStridedSlice S2048x2 ![0, 6] v138 slices_S2048x8_o0_6_S2048x2))
      (tanh (mulf (logistic v139) (tanh v141))) (ix2 p j) = f 4 j)
    (hg : ∀ c, v3 (ix2 p c) = g c) :
    k0_pay1 v3 v32 v61 v90 v119 v138 v139 v141 v151 v154 v160 v163 (ix2 p q)
      = out (hidden (feat f g) (fun k r => v151 (ix2 k r)) (fun r => v154 (ix2 (0 : Fin 1) r)))
          (fun k o => v160 (ix2 k o)) (fun o => v163 (ix2 (0 : Fin 1) o)) q := by
  refine (logisticDense_apply plain2 _ _ _ _ p q).trans ?_
  refine congrArg Ideal.logistic (congrArg₂ (· + ·) (Finset.sum_congr rfl fun k _ => congrArg₂ (· * ·) ?_ ?_) ?_)
  · refine (reluDense_apply plain1 _ _ _ _ p k).trans ?_
    refine congrArg (max · 0) (congrArg₂ (· + ·) (Finset.sum_congr rfl fun i _ => congrArg₂ (· * ·) ?_ ?_) ?_)
    · exact featV_apply v32 v61 v90 v119 _ v3 _ _ p i f g h0 h1 h2 h3 h4 hg
    · exact congrFun (shapeCast_self v151 _) (ix2 i k)
    · exact congrFun (shapeCast_self v154 _) (ix2 (0 : Fin 1) k)
  · exact congrFun (shapeCast_self v160 _) (ix2 k q)
  · exact congrFun (shapeCast_self v163 _) (ix2 (0 : Fin 1) q)

/-- THE TILE: entry `(p, q)` of what the body stores is output `q` of the row function at the tile's row `p`. -/
theorem out_apply (x0 : Vec Ideal S5x1x2048x2 .f32) (x1 : Vec Ideal S1x2048x14 .f32) (x2 : Vec Ideal S5x2x8 .f32)
    (x3 : Vec Ideal S5x1x8 .f32) (x4 : Vec Ideal S24x24 .f32) (x5 : Vec Ideal S1x24 .f32) (x6 : Vec Ideal S24x5 .f32)
    (x7 : Vec Ideal S1x5 .f32) (p : Fin 2048) (q : Fin 5) :
    out0_8 x0 x1 x2 x3 x4 x5 x6 x7 (ix2 p q)
      = row (fun n c => x0 (ix4 n (0 : Fin 1) p c)) (fun c => x1 (ix3 (0 : Fin 1) p c)) (fun n h g => x2 (ix3 n h g))
          (fun n g => x3 (ix3 n (0 : Fin 1) g)) (fun k r => x4 (ix2 k r)) (fun r => x5 (ix2 (0 : Fin 1) r))
          (fun k o => x6 (ix2 k o)) (fun o => x7 (ix2 (0 : Fin 1) o)) q := by
  unfold out0_8
  rw [View.canon_unit_zero hz2]
  simp only [View.ld_unit_zero (S := S5x1x2048x2) hz4, View.ld_unit_zero (S := S1x2048x14) hz3,
    View.ld_unit_zero (S := S24x24) hz2, View.ld_unit_zero (S := S1x24) hz2, View.ld_unit_zero (S := S24x5) hz2,
    View.ld_unit_zero (S := S1x5) hz2]
  refine pay1_apply _ _ _ _ _ _ _ _ x4 x5 x6 x7 p q
    (hval (fun n c => x0 (ix4 n (0 : Fin 1) p c)) (fun n h g => x2 (ix3 n h g)) (fun n g => x3 (ix3 n (0 : Fin 1) g)))
    (fun c => x1 (ix3 (0 : Fin 1) p c)) ?_ ?_ ?_ ?_ ?_ ?_
  · intro j
    refine (cellTile_apply x0 (View.ld x2 r0_2) (View.ld x3 r0_3) 0 (by decide)
      shapeCasts_S5x1x2048x2_S5x2048x2 slices_S5x2048x2_o0_0_0_S1x2048x2 shapeCasts_S1x2048x2_S2048x2 slices_S2048x2_o0_0_S2048x1
      slices_S2048x2_o0_1_S2048x1 shapeCasts_S1x2x8_S2x8 shapeCasts_S1x1x8_S1x8 slices_S2x8_o0_0_S1x8 slices_S2x8_o1_0_S1x8
      broadcasts_S2048x1_S2048x8 broadcasts_S1x8_S2048x8 slices_S2048x8_o0_0_S2048x2 slices_S2048x8_o0_4_S2048x2
      slices_S2048x8_o0_6_S2048x2 p j).trans ?_
    simp only [ld_w x2 0 (by decide), ld_b x3 0 (by decide)]
    rfl
  · intro j
    refine (cellTile_apply x0 (View.ld x2 r0_4) (View.ld x3 r0_5) 1 (by decide)
      shapeCasts_S5x1x2048x2_S5x2048x2 slices_S5x2048x2_o1_0_0_S1x2048x2 shapeCasts_S1x2048x2_S2048x2 slices_S2048x2_o0_0_S2048x1
      slices_S2048x2_o0_1_S2048x1 shapeCasts_S1x2x8_S2x8 shapeCasts_S1x1x8_S1x8 slices_S2x8_o0_0_S1x8 slices_S2x8_o1_0_S1x8
      broadcasts_S2048x1_S2048x8 broadcasts_S1x8_S2048x8 slices_S2048x8_o0_0_S2048x2 slices_S2048x8_o0_4_S2048x2
      slices_S2048x8_o0_6_S2048x2 p j).trans ?_
    simp only [ld_w x2 1 (by decide), ld_b x3 1 (by decide)]
    rfl
  · intro j
    refine (cellTile_apply x0 (View.ld x2 r0_6) (View.ld x3 r0_7) 2 (by decide)
      shapeCasts_S5x1x2048x2_S5x2048x2 slices_S5x2048x2_o2_0_0_S1x2048x2 shapeCasts_S1x2048x2_S2048x2 slices_S2048x2_o0_0_S2048x1
      slices_S2048x2_o0_1_S2048x1 shapeCasts_S1x2x8_S2x8 shapeCasts_S1x1x8_S1x8 slices_S2x8_o0_0_S1x8 slices_S2x8_o1_0_S1x8
      broadcasts_S2048x1_S2048x8 broadcasts_S1x8_S2048x8 slices_S2048x8_o0_0_S2048x2 slices_S2048x8_o0_4_S2048x2
      slices_S2048x8_o0_6_S2048x2 p j).trans ?_
    simp only [ld_w x2 2 (by decide), ld_b x3 2 (by decide)]
    rfl
  · intro j
    refine (cellTile_apply x0 (View.ld x2 r0_8) (View.ld x3 r0_9) 3 (by decide)
      shapeCasts_S5x1x2048x2_S5x2048x2 slices_S5x2048x2_o3_0_0_S1x2048x2 shapeCasts_S1x2048x2_S2048x2 slices_S2048x2_o0_0_S2048x1
      slices_S2048x2_o0_1_S2048x1 shapeCasts_S1x2x8_S2x8 shapeCasts_S1x1x8_S1x8 slices_S2x8_o0_0_S1x8 slices_S2x8_o1_0_S1x8
      broadcasts_S2048x1_S2048x8 broadcasts_S1x8_S2048x8 slices_S2048x8_o0_0_S2048x2 slices_S2048x8_o0_4_S2048x2
      slices_S2048x8_o0_6_S2048x2 p j).trans ?_
    simp only [ld_w x2 3 (by decide), ld_b x3 3 (by decide)]
    rfl
  · intro j
    refine (cellTile_apply x0 (View.ld x2 r0_10) (View.ld x3 r0_11) 4 (by decide)
      shapeCasts_S5x1x2048x2_S5x2048x2 slices_S5x2048x2_o4_0_0_S1x2048x2 shapeCasts_S1x2048x2_S2048x2 slices_S2048x2_o0_0_S2048x1
      slices_S2048x2_o0_1_S2048x1 shapeCasts_S1x2x8_S2x8 shapeCasts_S1x1x8_S1x8 slices_S2x8_o0_0_S1x8 slices_S2x8_o1_0_S1x8
      broadcasts_S2048x1_S2048x8 broadcasts_S1x8_S2048x8 slices_S2048x8_o0_0_S2048x2 slices_S2048x8_o0_4_S2048x2
      slices_S2048x8_o0_6_S2048x2 p j).trans ?_
    simp only [ld_w x2 4 (by decide), ld_b x3 4 (by decide)]
    rfl
  · intro c
    exact shapeCast_1ab_ab_apply x1 _ p c

end Cert.KernelIdeal.Row

end
-- ==== Proof.KernelArray.lean ====
/-
  From the tiles to the whole result array.

  Grid point `t` of 512 works on the batch rows `2048 t … 2048 t + 2047`: its tile of the sequences and of the other
  inputs is that range of rows of the argument arrays, its output tile is that range of rows of the result, and the
  weights' and biases' windows are their whole arrays at every point.  Before the grid runs, the host lays the weights
  out as the kernel wants them: the cells' weights and the dense layers' weights transposed, the two bias vectors of the
  cells added and given a unit axis, the dense layers' biases made rows.  So entry `(p, q)` of tile `t` is the row function
  at batch row `2048 t + p` of the argument arrays, the tiles cover the result, and the result array ends as `G` of the
  argument arrays.
-/
import proofs.«131684_j64330020159577_2_alg».proof.Proof.Gen.KernelIdeal.Value
import proofs.«131684_j64330020159577_2_alg».proof.Proof.KernelRow
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.LstmHead
open Idealize.ShloMosaic.Pipeline (Dat)

variable (m : (ℓ : Loc nD τ sig) → Buf (Elt Ideal) ℓ) (ρ : Dev nD → PrngReg)

/-- `G` of the argument arrays of core `c`. -/
abbrev Gm (c : Dev nD) : S1048576x5.Idx → EReal :=
  G (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-! ## What the host wrote before the grid -/

theorem V_wih (c : Dev nD) : (V m c main_v2 : S5x2x8.Idx → EReal)
    = transpose S5x2x8 [0, 2, 1] (m ((c : Thread nD τ).loc main_arg2)) transposes_S5x8x2_S5x2x8_0_2_1 := by
  dsimp only [Gen.V, Gen.hostOps0]; after_results

theorem V_bias (c : Dev nD) : (V m c main_v1 : S5x1x8.Idx → EReal)
    = shapeCast S5x1x8 (addf (F := Ideal) (φ := .f32) (m ((c : Thread nD τ).loc main_arg4)) (m ((c : Thread nD τ).loc main_arg5))) shapeCasts_S5x8_S5x1x8 := by
  dsimp only [Gen.V, Gen.hostOps0]; after_results; rfl

theorem V_w1 (c : Dev nD) : (V m c main_v3 : S24x24.Idx → EReal)
    = transpose S24x24 [1, 0] (m ((c : Thread nD τ).loc main_arg6)) transposes_S24x24_S24x24_1_0 := by
  dsimp only [Gen.V, Gen.hostOps0]; after_results

theorem V_b1 (c : Dev nD) : (V m c main_v5 : S1x24.Idx → EReal)
    = shapeCast S1x24 (m ((c : Thread nD τ).loc main_arg7)) shapeCasts_S24_S1x24 := by
  dsimp only [Gen.V, Gen.hostOps0]; after_results; rfl

theorem V_w2 (c : Dev nD) : (V m c main_v4 : S24x5.Idx → EReal)
    = transpose S24x5 [1, 0] (m ((c : Thread nD τ).loc main_arg8)) transposes_S5x24_S24x5_1_0 := by
  dsimp only [Gen.V, Gen.hostOps0]; after_results

theorem V_b2 (c : Dev nD) : (V m c main_v6 : S1x5.Idx → EReal)
    = shapeCast S1x5 (m ((c : Thread nD τ).loc main_arg9)) shapeCasts_S5_S1x5 := by
  dsimp only [Gen.V, Gen.hostOps0]; after_results; rfl

/-! ## Where each window's block sits, decided over the 512 points -/

theorem idx0 : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)
theorem idx1 : ∀ t : Fin cfg0.N, win0_1.index t (0 : Fin 3) = 0 ∧ win0_1.index t (1 : Fin 3) = t.val
    ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

theorem t_lt (t : Fin cfg0.N) : t.val < 512 := lt_of_lt_of_eq t.isLt N_0

/-- The batch row of row `p` of tile `t`. -/
def brow (t : Fin cfg0.N) (p : Fin 2048) : Fin 1048576 := ⟨t.val * 2048 + p.val, by have := t_lt t; have := p.isLt; omega⟩

/-! ## The blocks read off the arrays -/

theorem blk_seqs (c : Dev nD) (t : Fin cfg0.N) (n : Fin 5) (u : Fin 1) (p : Fin 2048) (cc : Fin 2) :
    iblk m c 0 t (ix4 n u p cc) = m ((c : Thread nD τ).loc main_arg0) (ix4 n (0 : Fin 1) (brow t p) cc) := by
  obtain ⟨e0, e1, e2, e3⟩ := idx0 t
  show V m c main_arg0 (((cfg0.win 0).blk t).view.emb (ix4 n u p cc)) = _
  rw [V_main_arg0]
  refine congrArg _ (funext fun a => Fin.ext ?_)
  match a with
  | ⟨0, _⟩ => show win0_0.index t (0 : Fin 4) * 5 + 1 * n.val = n.val; rw [e0]; omega
  | ⟨1, _⟩ => show win0_0.index t (1 : Fin 4) * 1 + 1 * u.val = 0; rw [e1]; omega
  | ⟨2, _⟩ => show win0_0.index t (2 : Fin 4) * 2048 + 1 * p.val = t.val * 2048 + p.val; rw [e2]; omega
  | ⟨3, _⟩ => show win0_0.index t (3 : Fin 4) * 2 + 1 * cc.val = cc.val; rw [e3]; omega

theorem blk_others (c : Dev nD) (t : Fin cfg0.N) (u : Fin 1) (p : Fin 2048) (cc : Fin 14) :
    iblk m c 1 t (ix3 u p cc) = m ((c : Thread nD τ).loc main_arg1) (ix3 (0 : Fin 1) (brow t p) cc) := by
  obtain ⟨e0, e1, e2⟩ := idx1 t
  show V m c main_arg1 (((cfg0.win 1).blk t).view.emb (ix3 u p cc)) = _
  rw [V_main_arg1]
  refine congrArg _ (funext fun a => Fin.ext ?_)
  match a with
  | ⟨0, _⟩ => show win0_1.index t (0 : Fin 3) * 1 + 1 * u.val = 0; rw [e0]; omega
  | ⟨1, _⟩ => show win0_1.index t (1 : Fin 3) * 2048 + 1 * p.val = t.val * 2048 + p.val; rw [e1]; omega
  | ⟨2, _⟩ => show win0_1.index t (2 : Fin 3) * 14 + 1 * cc.val = cc.val; rw [e2]; omega

theorem blk_wih (c : Dev nD) (t : Fin cfg0.N) (n : Fin 5) (h : Fin 2) (g : Fin 8) :
    iblk m c 2 t (ix3 n h g) = m ((c : Thread nD τ).loc main_arg2) (ix3 n g h) := by
  obtain ⟨e0, e1, e2⟩ := idx2 t
  have he : ((cfg0.win 2).blk t).view.emb (ix3 n h g) = ix3 n h g := funext fun a => Fin.ext (by
    match a with
    | ⟨0, _⟩ => show win0_2.index t (0 : Fin 3) * 5 + 1 * n.val = n.val; rw [e0]; omega
    | ⟨1, _⟩ => show win0_2.index t (1 : Fin 3) * 2 + 1 * h.val = h.val; rw [e1]; omega
    | ⟨2, _⟩ => show win0_2.index t (2 : Fin 3) * 8 + 1 * g.val = g.val; rw [e2]; omega)
  show (V m c main_v2 : S5x2x8.Idx → EReal) (((cfg0.win 2).blk t).view.emb (ix3 n h g)) = _
  rw [he, V_wih]
  exact transpose_ix3_021_apply _ _ n h g

theorem blk_bias (c : Dev nD) (t : Fin cfg0.N) (n : Fin 5) (u : Fin 1) (g : Fin 8) :
    iblk m c 3 t (ix3 n u g)
      = addf (F := Ideal) (φ := .f32) (m ((c : Thread nD τ).loc main_arg4)) (m ((c : Thread nD τ).loc main_arg5)) (ix2 n g) := by
  obtain ⟨e0, e1, e2⟩ := idx3 t
  have he : ((cfg0.win 3).blk t).view.emb (ix3 n u g) = ix3 n u g := funext fun a => Fin.ext (by
    match a with
    | ⟨0, _⟩ => show win0_3.index t (0 : Fin 3) * 5 + 1 * n.val = n.val; rw [e0]; omega
    | ⟨1, _⟩ => show win0_3.index t (1 : Fin 3) * 1 + 1 * u.val = u.val; rw [e1]; omega
    | ⟨2, _⟩ => show win0_3.index t (2 : Fin 3) * 8 + 1 * g.val = g.val; rw [e2]; omega)
  show (V m c main_v1 : S5x1x8.Idx → EReal) (((cfg0.win 3).blk t).view.emb (ix3 n u g)) = _
  rw [he, V_bias]
  refine shapeCast_apply _ shapeCasts_S5x8_S5x1x8 (ix3 n u g) (ix2 n g) ?_
  rw [Shape.rowMajor_val_three, Shape.rowMajor_val_two]
  show n.val * 8 + g.val = (n.val * 1 + u.val) * 8 + g.val
  have := u.isLt
  omega

theorem blk_w1 (c : Dev nD) (t : Fin cfg0.N) (k r : Fin 24) :
    iblk m c 4 t (ix2 k r) = m ((c : Thread nD τ).loc main_arg6) (ix2 r k) := by
  obtain ⟨e0, e1⟩ := idx4 t
  have he : ((cfg0.win 4).blk t).view.emb (ix2 k r) = ix2 k r := funext fun a => Fin.ext (by
    match a with
    | ⟨0, _⟩ => show win0_4.index t (0 : Fin 2) * 24 + 1 * k.val = k.val; rw [e0]; omega
    | ⟨1, _⟩ => show win0_4.index t (1 : Fin 2) * 24 + 1 * r.val = r.val; rw [e1]; omega)
  show (V m c main_v3 : S24x24.Idx → EReal) (((cfg0.win 4).blk t).view.emb (ix2 k r)) = _
  rw [he, V_w1]
  exact transpose_ix2_apply _ _ k r

theorem blk_b1 (c : Dev nD) (t : Fin cfg0.N) (u : Fin 1) (r : Fin 24) :
    iblk m c 5 t (ix2 u r) = m ((c : Thread nD τ).loc main_arg7) (ix1 r) := by
  obtain ⟨e0, e1⟩ := idx5 t
  have he : ((cfg0.win 5).blk t).view.emb (ix2 u r) = ix2 u r := funext fun a => Fin.ext (by
    match a with
    | ⟨0, _⟩ => show win0_5.index t (0 : Fin 2) * 1 + 1 * u.val = u.val; rw [e0]; omega
    | ⟨1, _⟩ => show win0_5.index t (1 : Fin 2) * 24 + 1 * r.val = r.val; rw [e1]; omega)
  show (V m c main_v5 : S1x24.Idx → EReal) (((cfg0.win 5).blk t).view.emb (ix2 u r)) = _
  rw [he, V_b1]
  exact shapeCast_a_1a_apply _ _ u r

theorem blk_w2 (c : Dev nD) (t : Fin cfg0.N) (k : Fin 24) (o : Fin 5) :
    iblk m c 6 t (ix2 k o) = m ((c : Thread nD τ).loc main_arg8) (ix2 o k) := by
  obtain ⟨e0, e1⟩ := idx6 t
  have he : ((cfg0.win 6).blk t).view.emb (ix2 k o) = ix2 k o := funext fun a => Fin.ext (by
    match a with
    | ⟨0, _⟩ => show win0_6.index t (0 : Fin 2) * 24 + 1 * k.val = k.val; rw [e0]; omega
    | ⟨1, _⟩ => show win0_6.index t (1 : Fin 2) * 5 + 1 * o.val = o.val; rw [e1]; omega)
  show (V m c main_v4 : S24x5.Idx → EReal) (((cfg0.win 6).blk t).view.emb (ix2 k o)) = _
  rw [he, V_w2]
  exact transpose_ix2_apply _ _ k o

theorem blk_b2 (c : Dev nD) (t : Fin cfg0.N) (u : Fin 1) (o : Fin 5) :
    iblk m c 7 t (ix2 u o) = m ((c : Thread nD τ).loc main_arg9) (ix1 o) := by
  obtain ⟨e0, e1⟩ := idx7 t
  have he : ((cfg0.win 7).blk t).view.emb (ix2 u o) = ix2 u o := funext fun a => Fin.ext (by
    match a with
    | ⟨0, _⟩ => show win0_7.index t (0 : Fin 2) * 1 + 1 * u.val = u.val; rw [e0]; omega
    | ⟨1, _⟩ => show win0_7.index t (1 : Fin 2) * 5 + 1 * o.val = o.val; rw [e1]; omega)
  show (V m c main_v6 : S1x5.Idx → EReal) (((cfg0.win 7).blk t).view.emb (ix2 u o)) = _
  rw [he, V_b2]
  exact shapeCast_a_1a_apply _ _ u o

/-! ## What a point writes back, the cover, the array -/

/-- Entry `(p, q)` of tile `t` is entry `(2048 t + p, q)` of `G` of the argument arrays. -/
theorem tile_entry (c : Dev nD) (t : Fin cfg0.N) (p : Fin 2048) (q : Fin 5) :
    out0_8 (iblk m c 0 t) (iblk m c 1 t) (iblk m c 2 t) (iblk m c 3 t) (iblk m c 4 t) (iblk m c 5 t) (iblk m c 6 t) (iblk m c 7 t) (ix2 p q)
      = Gm m c (ix2 (brow t p) q) := by
  refine (Row.out_apply _ _ _ _ _ _ _ _ p q).trans ?_
  simp only [blk_seqs m c t, blk_others m c t, blk_wih m c t, blk_bias m c t, blk_w1 m c t, blk_b1 m c t, blk_w2 m c t, blk_b2 m c t]
  rfl

/-- WHAT POINT `t` WRITES BACK is block `t` of `G` of the argument arrays. -/
theorem flushed_eq (c : Dev nD) (t : Fin cfg0.N) :
    (dats m 0 c).flushed 8 t = ((cfg0.win 8).blk t).view.read (Elt Ideal) (Gm m c) := by
  rw [Value.flushed8]
  funext y
  obtain ⟨p, q, rfl⟩ : ∃ (p : Fin 2048) (q : Fin 5), y = ix2 p q := ⟨y 0, y 1, eq_ix2 y⟩
  obtain ⟨e0, e1⟩ := idx8 t
  have he : ((cfg0.win 8).blk t).view.emb (ix2 p q) = ix2 (brow t p) q := funext fun a => Fin.ext (by
    match a with
    | ⟨0, _⟩ => show win0_8.index t (0 : Fin 2) * 2048 + 1 * p.val = t.val * 2048 + p.val; rw [e0]; omega
    | ⟨1, _⟩ => show win0_8.index t (1 : Fin 2) * 5 + 1 * q.val = q.val; rw [e1]; omega)
  show out0_8 (iblk m c 0 t) (iblk m c 1 t) (iblk m c 2 t) (iblk m c 3 t) (iblk m c 4 t) (iblk m c 5 t) (iblk m c 6 t) (iblk m c 7 t) (ix2 p q)
    = Gm m c (((cfg0.win 8).blk t).view.emb (ix2 p q))
  rw [he]
  exact tile_entry m c t p q

/-- An index of the result is in point `t`'s block iff each coordinate is in the block's range on its axis. -/
theorem mem_blk (t : Fin cfg0.N) (i : S1048576x5.Idx) :
    i ∈ ((cfg0.win 8).blk t).view.set ↔ ∀ a : Fin 2, win0_8.index t a * S2048x5.size a ≤ (i a).val
      ∧ (i a).val < win0_8.index t a * S2048x5.size a + S2048x5.size a := by
  show i ∈ ((View.whole main_v7).slice (win0_8.rect t)).set ↔ _
  rw [View.set_slice_whole, Rect.mem_set_unit]
  exact Iff.rfl

/-- Every batch row lies in the tile of the point its row number over 2048 names. -/
theorem cover (i : S1048576x5.Idx) : ∃ t : Fin cfg0.N, (cfg0.win 8).flush t = true ∧ i ∈ ((cfg0.win 8).blk t).view.set := by
  have hi0 : (i 0).val < 1048576 := (i 0).isLt
  have hi1 : (i 1).val < 5 := (i 1).isLt
  have hN : (i 0).val / 2048 < cfg0.N := by rw [show cfg0.N = 512 from N_0]; omega
  refine ⟨⟨(i 0).val / 2048, hN⟩, flush0_8 _, ?_⟩
  rw [mem_blk]
  obtain ⟨e0, e1⟩ := idx8 ⟨(i 0).val / 2048, hN⟩
  intro a
  match a with
  | ⟨0, _⟩ =>
    show win0_8.index ⟨(i 0).val / 2048, hN⟩ (0 : Fin 2) * 2048 ≤ (i 0).val
      ∧ (i 0).val < win0_8.index ⟨(i 0).val / 2048, hN⟩ (0 : Fin 2) * 2048 + 2048
    rw [e0]
    show (i 0).val / 2048 * 2048 ≤ (i 0).val ∧ (i 0).val < (i 0).val / 2048 * 2048 + 2048
    omega
  | ⟨1, _⟩ =>
    show win0_8.index ⟨(i 0).val / 2048, hN⟩ (1 : Fin 2) * 5 ≤ (i 1).val
      ∧ (i 1).val < win0_8.index ⟨(i 0).val / 2048, hN⟩ (1 : Fin 2) * 5 + 5
    rw [e1]
    omega

/-- THE RESULT ARRAY after the run is `G` of the argument arrays. -/
theorem final (c : Dev nD) : (dats m 0 c).arrAt 8 cfg0.N = Gm m c :=
  (dats m 0 c).arrAt_eq_of_cover 8 (Gm m c) (fun t _ => flushed_eq m c t) cover

/-- The kernel's run: every weakly fair execution terminates with the result at `G` of the argument arrays and the
    arguments unchanged. -/
theorem run : θ_run defs (onTc (τ := τ) (main (F := Ideal))) ⟨m, fun _ => 0, ρ⟩ fun r => ∀ c : Dev nD,
      r.2.mem ((c : Thread nD τ).loc main_v7) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefRow.lean ====
/-
  The reference program's result, entry by entry, is the row function.

  The reference forms all five cells' gate pre-activations at once as a batched product over the two inputs plus the
  summed biases, cuts the input, cell and output gates out of the eight lanes, spells the logistic function as
  `1 / (1 + exp (-x))`, lays the cells' outputs side by side by a transpose and a reshape, appends the other inputs,
  and applies the two dense layers with the weight matrices transposed.  Read at the batch row `b`, each stage is the
  matching stage of `row`; the batched product over two inputs is the two-term sum the kernel writes out, and the
  spelt-out logistic is the logistic.
-/
import proofs.«131684_j64330020159577_2_alg».proof.Proof.Gen.ReferenceIdeal.Read
import proofs.«131684_j64330020159577_2_alg».proof.Proof.Spec
import Idealize.ShloMosaic.Lib.IdealHost
import Idealize.ShloMosaic.Lib.Pipeline.Value

noncomputable section

open scoped BigOperators

namespace Cert.ReferenceIdeal.RefRow

open Cert.ReferenceIdeal Cert.ReferenceIdeal.Read Idealize.ShloMosaic Idealize.ShloMosaic.ValueIdx Cert.LstmHead

/-- The logistic function as the host spells it, `1 / (1 + exp (-x))` with the constant one read off its float pattern. -/
theorem logistic_spelt (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [Ideal.ofBits_one_f32]

variable (a0 : (⟨S5x1x1048576x2, .f32⟩ : BufTy).Contents (Elt Ideal)) (a1 : (⟨S1x1048576x14, .f32⟩ : BufTy).Contents (Elt Ideal)) (a2 : (⟨S5x8x2, .f32⟩ : BufTy).Contents (Elt Ideal)) (a4 a5 : (⟨S5x8, .f32⟩ : BufTy).Contents (Elt Ideal))
  (a6 : (⟨S24x24, .f32⟩ : BufTy).Contents (Elt Ideal)) (a7 : (⟨S24, .f32⟩ : BufTy).Contents (Elt Ideal)) (a8 : (⟨S5x24, .f32⟩ : BufTy).Contents (Elt Ideal)) (a9 : (⟨S5, .f32⟩ : BufTy).Contents (Elt Ideal))

/-! ## The cells -/

/-- The gate pre-activation of cell `n`, batch row `b`, lane `q`. -/
theorem gates_ref (n : Fin 5) (b : Fin 1048576) (q : Fin 8) :
    val_main_v5 (F := Ideal) a0 a2 a4 a5 (ix3 n b q)
      = gate (a0 (ix4 n (0 : Fin 1) b (0 : Fin 2))) (a0 (ix4 n (0 : Fin 1) b (1 : Fin 2))) (a2 (ix3 n q (0 : Fin 2)))
          (a2 (ix3 n q (1 : Fin 2))) (a4 (ix2 n q) + a5 (ix2 n q)) := by
  rw [val_main_v5_apply, val_main_v1_apply, val_main_v4_apply, val_main_v3_apply, val_main_v2_apply, Fin.sum_univ_two,
    val_main_v0_apply, val_main_v0_apply]
  have hn := n.isLt
  have hb := b.isLt
  have e0 : idx_main_v0 (lidx_main_v1 (ix3 n b q) (0 : Fin 2)) = ix4 n (0 : Fin 1) b (0 : Fin 2) := funext fun a => Fin.ext (by
    match a with
    | ⟨0, _⟩ => show ((n.val * 1048576 + b.val) * 2 + 0) / 2097152 = n.val; omega
    | ⟨1, _⟩ => rfl
    | ⟨2, _⟩ => show ((n.val * 1048576 + b.val) * 2 + 0) / 2 % 1048576 = b.val; omega
    | ⟨3, _⟩ => show ((n.val * 1048576 + b.val) * 2 + 0) % 2 = 0; omega)
  have e1 : idx_main_v0 (lidx_main_v1 (ix3 n b q) (1 : Fin 2)) = ix4 n (0 : Fin 1) b (1 : Fin 2) := funext fun a => Fin.ext (by
    match a with
    | ⟨0, _⟩ => show ((n.val * 1048576 + b.val) * 2 + 1) / 2097152 = n.val; omega
    | ⟨1, _⟩ => rfl
    | ⟨2, _⟩ => show ((n.val * 1048576 + b.val) * 2 + 1) / 2 % 1048576 = b.val; omega
    | ⟨3, _⟩ => show ((n.val * 1048576 + b.val) * 2 + 1) % 2 = 1; omega)
  have r0 : ridx_main_v1 (ix3 n b q) (0 : Fin 2) = ix3 n q (0 : Fin 2) := funext fun a => Fin.ext (by
    match a with
    | ⟨0, _⟩ => rfl
    | ⟨1, _⟩ => rfl
    | ⟨2, _⟩ => rfl)
  have r1 : ridx_main_v1 (ix3 n b q) (1 : Fin 2) = ix3 n q (1 : Fin 2) := funext fun a => Fin.ext (by
    match a with
    | ⟨0, _⟩ => rfl
    | ⟨1, _⟩ => rfl
    | ⟨2, _⟩ => rfl)
  have eb : idx_main_v3 (idx_main_v4 (ix3 n b q)) = ix2 n q := funext fun a => Fin.ext (by
    match a with
    | ⟨0, _⟩ => rfl
    | ⟨1, _⟩ => rfl)
  rw [e0, e1, r0, r1, eb]
  rfl

/-- The input gate's logistic, lane `j`. -/
theorem inGate_ref (n : Fin 5) (b : Fin 1048576) (j : Fin 2) :
    val_main_v15 (F := Ideal) a0 a2 a4 a5 (ix3 n b j)
      = Ideal.logistic (val_main_v5 (F := Ideal) a0 a2 a4 a5 (ix3 n b (⟨j.val, by have := j.isLt; omega⟩ : Fin 8))) := by
  rw [val_main_v15_apply, val_main_v14_apply, val_main_cst_0_apply, val_main_v13_apply, val_main_v12_apply, val_main_cst_apply,
    val_main_v11_apply, val_main_v10_apply, val_main_v6_apply]
  have e : idx_main_v6 (ix3 n b j) = ix3 n b (⟨j.val, by have := j.isLt; omega⟩ : Fin 8) := funext fun a => Fin.ext (by
    match a with
    | ⟨0, _⟩ => rfl
    | ⟨1, _⟩ => rfl
    | ⟨2, _⟩ => rfl)
  rw [e]
  exact logistic_spelt _

/-- The cell gate's hyperbolic tangent, lane `j`. -/
theorem cellGate_ref (n : Fin 5) (b : Fin 1048576) (j : Fin 2) :
    val_main_v16 (F := Ideal) a0 a2 a4 a5 (ix3 n b j)
      = Ideal.tanh (val_main_v5 (F := Ideal) a0 a2 a4 a5 (ix3 n b (⟨4 + j.val, by have := j.isLt; omega⟩ : Fin 8))) := by
  rw [val_main_v16_apply, val_main_v8_apply]
  have e : idx_main_v8 (ix3 n b j) = ix3 n b (⟨4 + j.val, by have := j.isLt; omega⟩ : Fin 8) := funext fun a => Fin.ext (by
    match a with
    | ⟨0, _⟩ => rfl
    | ⟨1, _⟩ => rfl
    | ⟨2, _⟩ => rfl)
  rw [e]
  rfl

/-- The output gate's logistic, lane `j`. -/
theorem outGate_ref (n : Fin 5) (b : Fin 1048576) (j : Fin 2) :
    val_main_v23 (F := Ideal) a0 a2 a4 a5 (ix3 n b j)
      = Ideal.logistic (val_main_v5 (F := Ideal) a0 a2 a4 a5 (ix3 n b (⟨6 + j.val, by have := j.isLt; omega⟩ : Fin 8))) := by
  rw [val_main_v23_apply, val_main_v22_apply, val_main_cst_2_apply, val_main_v21_apply, val_main_v20_apply, val_main_cst_1_apply,
    val_main_v19_apply, val_main_v18_apply, val_main_v9_apply]
  have e : idx_main_v9 (ix3 n b j) = ix3 n b (⟨6 + j.val, by have := j.isLt; omega⟩ : Fin 8) := funext fun a => Fin.ext (by
    match a with
    | ⟨0, _⟩ => rfl
    | ⟨1, _⟩ => rfl
    | ⟨2, _⟩ => rfl)
  rw [e]
  exact logistic_spelt _

/-- Lane `j` of cell `n`'s output at batch row `b`. -/
theorem cell_ref (n : Fin 5) (b : Fin 1048576) (j : Fin 2) :
    val_main_v25 (F := Ideal) a0 a2 a4 a5 (ix3 n b j)
      = hcell (a0 (ix4 n (0 : Fin 1) b (0 : Fin 2))) (a0 (ix4 n (0 : Fin 1) b (1 : Fin 2))) (fun h g => a2 (ix3 n g h))
          (fun g => a4 (ix2 n g) + a5 (ix2 n g)) j := by
  rw [val_main_v25_apply, val_main_v24_apply, val_main_v17_apply, outGate_ref, inGate_ref, cellGate_ref, gates_ref, gates_ref,
    gates_ref]
  rfl

/-! ## The feature vector -/

/-- Feature `k` of batch row `b`. -/
theorem feat_ref (b : Fin 1048576) (k : Fin 24) :
    val_main_v29 (F := Ideal) a0 a1 a2 a4 a5 (ix2 b k)
      = feat (fun n j => val_main_v25 (F := Ideal) a0 a2 a4 a5 (ix3 n b j)) (fun c => a1 (ix3 (0 : Fin 1) b c)) k := by
  unfold val_main_v29 feat
  have hb := b.isLt
  by_cases hk : k.val < 10
  · rw [dif_pos hk, concatenate_pair_apply_left (t := S1048576x24) (1 : Fin 2) (val_main_v27 (F := Ideal) a0 a2 a4 a5)
      (val_main_v28 (F := Ideal) a1) _ (ix2 b k) rfl (ix2 b (⟨k.val, hk⟩ : Fin 10)) (fun c => by
        match c with
        | ⟨0, _⟩ => rfl
        | ⟨1, _⟩ => rfl),
      val_main_v27_apply, val_main_v26_apply]
    refine congrArg (val_main_v25 (F := Ideal) a0 a2 a4 a5) (funext fun a => Fin.ext ?_)
    match a with
    | ⟨0, _⟩ => show (b.val * 10 + k.val) / 2 % 5 = k.val / 2; omega
    | ⟨1, _⟩ => show (b.val * 10 + k.val) / 10 = b.val; omega
    | ⟨2, _⟩ => show (b.val * 10 + k.val) % 2 = k.val % 2; omega
  · have hk24 := k.isLt
    rw [dif_neg hk, concatenate_pair_apply_right (t := S1048576x24) (1 : Fin 2) (val_main_v27 (F := Ideal) a0 a2 a4 a5)
      (val_main_v28 (F := Ideal) a1) _ (ix2 b k) rfl rfl (ix2 b (⟨k.val - 10, by omega⟩ : Fin 14)) (fun c hc => by
        match c with
        | ⟨0, _⟩ => rfl
        | ⟨1, _⟩ => exact absurd rfl hc) (by show (k.val - 10) + 10 = k.val; omega),
      val_main_v28_apply]
    refine congrArg a1 (funext fun a => Fin.ext ?_)
    match a with
    | ⟨0, _⟩ => rfl
    | ⟨1, _⟩ => show (b.val * 14 + (k.val - 10)) / 14 % 1048576 = b.val; omega
    | ⟨2, _⟩ => show (b.val * 14 + (k.val - 10)) % 14 = k.val - 10; omega

/-! ## The two dense layers -/

/-- Hidden unit `r` of batch row `b`. -/
theorem hidden_ref (b : Fin 1048576) (r : Fin 24) :
    val_main_v35 (F := Ideal) a0 a1 a2 a4 a5 a6 a7 (ix2 b r)
      = hidden (fun k => val_main_v29 (F := Ideal) a0 a1 a2 a4 a5 (ix2 b k)) (fun k r => a6 (ix2 r k)) (fun r => a7 (ix1 r)) r := by
  rw [val_main_v35_apply, val_main_v34_apply, val_main_v31_apply, val_main_call0_v0_apply, val_main_call0_cst_apply,
    val_main_v33_apply, val_main_v32_apply]
  have el : ∀ k : Fin 24, lidx_main_v31 (ix2 b r) k = ix2 b k := fun k => funext fun a => Fin.ext (by
    match a with
    | ⟨0, _⟩ => rfl
    | ⟨1, _⟩ => rfl)
  have er : ∀ k : Fin 24, val_main_v30 (F := Ideal) a6 (ridx_main_v31 (ix2 b r) k) = a6 (ix2 r k) := fun k => by
    rw [val_main_v30_apply]
    exact congrArg a6 (funext fun a => Fin.ext (by
      match a with
      | ⟨0, _⟩ => rfl
      | ⟨1, _⟩ => rfl))
  have eb : idx_main_v32 (idx_main_v33 (ix2 b r)) = ix1 r := funext fun a => Fin.ext (by
    match a with
    | ⟨0, _⟩ => rfl)
  simp only [el, er, eb]
  show max _ (Ideal.ofBits .f32 0x00000000#32) = _
  rw [Ideal.ofBits_zero_f32]
  rfl

/-- Output `o` of batch row `b`. -/
theorem out_ref (b : Fin 1048576) (o : Fin 5) :
    val_main_v46 (F := Ideal) a0 a1 a2 a4 a5 a6 a7 a8 a9 (ix2 b o)
      = out (fun k => val_main_v35 (F := Ideal) a0 a1 a2 a4 a5 a6 a7 (ix2 b k)) (fun k o => a8 (ix2 o k)) (fun o => a9 (ix1 o)) o := by
  rw [val_main_v46_apply, val_main_v45_apply, val_main_cst_4_apply, val_main_v44_apply, val_main_v43_apply, val_main_cst_3_apply,
    val_main_v42_apply, val_main_v41_apply, val_main_v40_apply, val_main_v37_apply, val_main_v39_apply, val_main_v38_apply]
  have el : ∀ k : Fin 24, lidx_main_v37 (ix2 b o) k = ix2 b k := fun k => funext fun a => Fin.ext (by
    match a with
    | ⟨0, _⟩ => rfl
    | ⟨1, _⟩ => rfl)
  have er : ∀ k : Fin 24, val_main_v36 (F := Ideal) a8 (ridx_main_v37 (ix2 b o) k) = a8 (ix2 o k) := fun k => by
    rw [val_main_v36_apply]
    exact congrArg a8 (funext fun a => Fin.ext (by
      match a with
      | ⟨0, _⟩ => rfl
      | ⟨1, _⟩ => rfl))
  have eb : idx_main_v38 (idx_main_v39 (ix2 b o)) = ix1 o := funext fun a => Fin.ext (by
    match a with
    | ⟨0, _⟩ => rfl)
  simp only [el, er, eb]
  exact logistic_spelt _

/-! ## The result array -/

/-- THE REFERENCE'S RESULT is `G` of the argument arrays. -/
theorem ref_eq : val_main_v46 (F := Ideal) a0 a1 a2 a4 a5 a6 a7 a8 a9 = G a0 a1 a2 a4 a5 a6 a7 a8 a9 := by
  funext i
  obtain ⟨b, o, rfl⟩ : ∃ (b : Fin 1048576) (o : Fin 5), i = ix2 b o := ⟨i 0, i 1, eq_ix2 i⟩
  rw [out_ref]
  simp only [hidden_ref, feat_ref, cell_ref]
  rfl

end Cert.ReferenceIdeal.RefRow

end
-- ==== Proof.lean ====
/-
  The kernel and its reference compute one function of the argument arrays over the extended reals.

  The model runs five LSTM cells for one time step from zero state on each batch row, concatenates their outputs with
  fourteen further inputs, and applies a dense layer with a clamp at zero and a dense layer with a logistic.  The
  kernel walks the batch in 512 tiles of 2048 rows and writes each cell's two-input product as two multiply-adds; the
  reference does the whole batch at once with batched products and spells the logistic out.  Both end with the result
  array at `G` of the argument arrays (Proof/Spec.lean): for the kernel by Proof/KernelRow.lean (a tile's entries) and
  Proof/KernelArray.lean (the tiles cover the result), for the reference by Proof/RefRow.lean.  The two sides differ only
  in how sums of two terms and of twenty-four terms are written, so no finiteness of the inputs is used.
  The idealization rewrote nothing, so the kernel is its own idealization; the three programs' runs leave their
  arguments unchanged by the generated frame certificates and the reference's generated run.
-/
import proofs.«131684_j64330020159577_2_alg».proof.Defs
import proofs.«131684_j64330020159577_2_alg».proof.Proof.Gen.Kernel
import proofs.«131684_j64330020159577_2_alg».proof.Proof.Gen.Kernel.Frame
import proofs.«131684_j64330020159577_2_alg».proof.Proof.Gen.KernelIdeal
import proofs.«131684_j64330020159577_2_alg».proof.Proof.Gen.KernelIdeal.Frame
import proofs.«131684_j64330020159577_2_alg».proof.Proof.Gen.KernelIdeal.Value
import proofs.«131684_j64330020159577_2_alg».proof.Proof.Gen.ReferenceIdeal
import proofs.«131684_j64330020159577_2_alg».proof.Proof.Gen.ReferenceIdeal.Run
import proofs.«131684_j64330020159577_2_alg».proof.Proof.Gen.ReferenceIdeal.Read
import proofs.«131684_j64330020159577_2_alg».proof.Proof.Gen.Pre_finite_inputs
import proofs.«131684_j64330020159577_2_alg».proof.Proof.KernelArray
import proofs.«131684_j64330020159577_2_alg».proof.Proof.RefRow
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to idealize the kernel. -/
theorem preserves : Cert.preserves_Kernel_KernelIdeal := trivial

/-- From memories that agree on the arguments both programs end with the result array at `G` of those arguments. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefRow.ref_eq]
  obtain ⟨h0, h1, h2, -, h4, h5, h6, h7, h8, h9⟩ := hagree c
  rw [h0, h1, h2, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
